-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x1 : Shape := ⟨3, ![4, 4096, 1]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x1 : S_.BroadcastsInDim S4x4096x1 (![] : Fin 0 → Fin S4x4096x1.rank)
  reducesTo_S4x4096x1_S_d0_1_2 : S4x4096x1.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S4x4096x1 1) : IVec S_ 1 :=
  let main_c_5 : IVec S_ 1 := constantI S_ 1 1#1
  let main_v17 : IVec S_ 1 := (fun x v => Host.reduce IntOp.andi x v reducesTo_S4x4096x1_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x4096x1024 .f32) (main_arg1 : FVec F S4x4096x1024 .f32) (main_arg2 : FVec F S4x4096x1024 .f32) (main_arg3 : FVec F S4x4096x1 .f32) (main_arg4 : FVec F S1024x1024 .f32) (main_arg5 : FVec F S1024x1024 .f32) (main_arg6 : FVec F S1024x1024 .f32) (main_arg7 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S4x4096x1 .f32 := Host.absf main_arg3
  let main_cst_4 : FVec F S_ .f32 := constant S_ .f32 0x7F800000#32
  let main_v15 : FVec F S4x4096x1 .f32 := broadcastInDim S4x4096x1 ![] bcast_S_S4x4096x1 main_cst_4
  let main_v16 : IVec S4x4096x1 1 := cmpf .olt main_v14 main_v15
  fn_part1 (F := F) main_arg4 main_arg5 main_arg6 main_arg7 main_v13 main_v16
-- ==== Kernel.lean ====
abbrev S4x4096x1024 : Shape := ⟨3, ![4, 4096, 1024]⟩
abbrev S4x4096x1 : Shape := ⟨3, ![4, 4096, 1]⟩
abbrev S1024x1024 : Shape := ⟨2, ![1024, 1024]⟩
abbrev S4x1024x1024 : Shape := ⟨3, ![4, 1024, 1024]⟩
abbrev S1x256x1024 : Shape := ⟨3, ![1, 256, 1024]⟩
abbrev S1x256x1 : Shape := ⟨3, ![1, 256, 1]⟩
abbrev S1x1024x1024 : Shape := ⟨3, ![1, 1024, 1024]⟩
abbrev S256x1024 : Shape := ⟨2, ![256, 1024]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S4x1024x1024, .bf16⟩
  | .hbm, ⟨13, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1, .f32⟩
  | .local _ .vmem, ⟨5, _⟩ => ⟨S1x256x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_25 : BitVec 32 := 0#32
  let v48 : BitVec 1 := Scalar.cmpi .ne v47 c0_i32_25
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x1024 : S256x1.Broadcasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S256x1024_S1024x1024_S256x1024_1_0_0_1_n_n_wf : DotDims.WF S256x1024 S1024x1024 S256x1024 [1] [0] [0] [1] [] []
  dot_S256x1024_S256x1024_S1024x1024_0_0_1_1_n_n_wf : DotDims.WF S256x1024 S256x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x4096x1024.size a
  hwx0_1 : ∀ i : grid0.Coords, EltTy.bits .f32 = 32 ∨ (Rect.block (s := S4x4096x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x4096x1.size a
  hwx0_2 : ∀ i : grid0.Coords, EltTy.bits .f32 = 32 ∨ (Rect.block (s := S4x4096x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S4x1024x1024.size a
  hwx0_7 : ∀ i : grid0.Coords, EltTy.bits .bf16 = 32 ∨ (Rect.block (s := S4x1024x1024) S1x1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .bf16 = 32 ∨ (Rect.block (s := S4x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .f32 = 32 ∨ (Rect.block (s := S4x4096x1024) S1x1024x1024.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S4x4096x1 : Shape := ⟨3, ![4, 4096, 1]⟩
abbrev S1024x1024 : Shape := ⟨2, ![1024, 1024]⟩
abbrev S_ : Shape := ⟨0, ![]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x1024x1024, .f32⟩
  | .hbm, ⟨25, _⟩ => ⟨S4x4096x1024, .f32⟩
  | .hbm, ⟨26, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩

abbrev nD : Nat := 1
abbrev τ : Topo := Topo.v7x

variable {F : FTy → Type} [FloatOps F]

class Facts₀ : Prop where
  bcast_S4x4096x1_S4x4096x1024_0_1_2 : S4x4096x1.BroadcastsInDim S4x4096x1024 (![0, 1, 2] : Fin 3 → Fin S4x4096x1024.rank)
  bcast_S_S4x4096x1024 : S_.BroadcastsInDim S4x4096x1024 (![] : Fin 0 → Fin S4x4096x1024.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.FrameK.Base.lean ====
/-
  The frame of the two-call program, part 1: what both calls' runs are stated over.
  Call 0 walks a 4 x 16 grid (batch, row tile): at tile 0 it zeroes a 1024 x 1024 accumulator it keeps
  between points, at every tile it adds that tile's product to it, and at tile 15 it multiplies the
  accumulator by the two weight matrices and stores the batch's 1024 x 1024 result block. So the body
  has three control cases, told apart by the point's position modulo 16 (0; 1 to 14; 15), and its
  output window is written, and written back, at the points of position 15 only.
  Call 1 walks a 4 x 4 grid and stores one block per point.
  Here: each window's block at a point read off the arrays the call finds, the two branch conditions
  decided over the 64 points, where the output window is idle, and names for the staging and
  accumulator memrefs.
-/
import proofs.«137665_j43181601194856_2_alg».proof.Proof.Gen.Kernel.Launch
import proofs.«137665_j43181601194856_2_alg».proof.Proof.Gen.Kernel.Skeleton
import proofs.«137665_j43181601194856_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a call is entered with: every statement about a call is made at this parameter
variable (V : (c : Dev nD) → (b : Ref sig .tc) → Buf (Elt F) ((c : Thread nD τ).loc b))

/-! ## Call 0: the windows' blocks -/

/-- Window `w`'s block at point `t`, read off its array as call 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. Stated per window, at the window's literal number (the block's type
    reduces there), for any proof data whose array is the call's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## Call 0: the branch conditions -/

/-- The accumulator is zeroed: the point is the first row tile of its batch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The result block is computed and stored: the point is the last row tile of its batch. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Call 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from a batch's last tile nothing is stored into the output window and it is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At a batch's last tile it is live. -/
theorem liveAt0_7 : ∀ t : Fin cfg0.N, cond0_1 (grid0.coords t) → cfg0.idle 7 (grid0.coords t) = false := by decide +kernel

/-! ## Call 0: the memrefs the body is called with -/

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .bf16 := win0_7.stage (cfg0.slots t 7)
abbrev hs0_7 (t : Fin cfg0.N) : (ms0_7 t).IsWhole := hstage0_7 ((cfg0.slots t 7).cast nbuf0_7)
/-- The accumulator: a whole scoped buffer of the kernel's own, passed beside the windows. -/
abbrev accM : Memref sig .tc .vmem S1024x1024 .f32 := Memref.whole cc0_scratch0
/-- The accumulator and the output window's staging buffer as views: their contents are stated through them. -/
abbrev accV : View sig .tc .vmem S1024x1024 .f32 := accM.view
abbrev outV0 : View sig .tc .vmem S1x1024x1024 .bf16 := (Memref.whole cc0_stg7_0 : Memref sig .tc .vmem S1x1024x1024 .bf16).view

/-- Call 1's six staging buffers, each at some contents: scoped buffers that call 0 neither stages nor touches. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What a call's body may use and need not describe — the scoped buffers no window of it stages and the generator
    register — is, for call 0: the accumulator at some contents, call 1's staging buffers, the register at some state. -/
theorem PhiA0_eq (c : Dev nD) :
    (Pipeline.ΦA spec0 c : sProp 𝕄)
      = iprop(iprop((∃ d, owns (c : Thread nD τ) accM fullShare d) ∗ other0 c) ∗ (∃ r, prngReg c r)) := by
  unfold Pipeline.ΦA other0; rw [scopedRest0_eq]; simp only [accM, owns_whole]; try rfl

/-! ## Call 1: the windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)

end Cert.Kernel.Hand

end
-- ==== Proof.FrameK.RunA.lean ====
/-
  The frame of the two-call program: the body of call 0 run whole in one of its three control cases.
-/
import proofs.«137665_j43181601194856_2_alg».proof.Proof.FrameK.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of call 0 at a batch's first row tile: the accumulator is zeroed, then the tile's product is added; nothing is stored into the output window.
    On whole staging memrefs, the seven inputs at their contents, the body runs to its continuation with the inputs as they
    were, the accumulator with the pieces it stored written into it, and the output window's buffer handed back untouched.
    The pieces are found by running the body: they are the witness. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) :
    Σ' (L7 : List (View.Piece (Elt F) S1x1024x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__weff_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__weff_kernel_eq_skeleton]; unfold cc0__weff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.FrameK.RunB.lean ====
/-
  The frame of the two-call program: the body of call 0 run whole in one of its three control cases.
-/
import proofs.«137665_j43181601194856_2_alg».proof.Proof.FrameK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of call 0 at a row tile that is neither first nor last: the tile's product is added to what the accumulator held; nothing is stored into the output window.
    On whole staging memrefs, the seven inputs at their contents, the body runs to its continuation with the inputs as they
    were, the accumulator with the pieces it stored written into it, and the output window's buffer handed back untouched.
    The pieces are found by running the body: they are the witness. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) :
    Σ' (L7 : List (View.Piece (Elt F) S1x1024x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__weff_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__weff_kernel_eq_skeleton]; unfold cc0__weff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.FrameK.RunC.lean ====
/-
  The frame of the two-call program: the body of call 0 run whole in one of its three control cases.
-/
import proofs.«137665_j43181601194856_2_alg».proof.Proof.FrameK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of call 0 at a batch's last row tile: the tile's product is added, then the accumulator times the two weight matrices is stored whole into the output window.
    On whole staging memrefs, the seven inputs at their contents, the body runs to its continuation with the inputs as they
    were, the accumulator with the pieces it stored written into it, and the output window's buffer with its one stored piece written.
    The pieces are found by running the body: they are the witness. -/
noncomputable def kernelRun0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) :
    Σ' (L7 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__weff_kernel i arg2 harg2 arg3 harg3 arg4 harg4 arg5 harg5 arg6 harg6 arg7 harg7 arg8 harg8 arg9 harg9 arg10 harg10) K } := by
  refine ⟨?_, ?_, fun E K => ?run⟩
  case run =>
    simp only [cc0__weff_kernel_eq_skeleton]; unfold cc0__weff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.FrameK.Run1.lean ====
/-
  The frame of the two-call program: the body of call 1, which loads its query block and its weight block,
  multiplies them and stores the product whole into its output block.
-/
import proofs.«137665_j43181601194856_2_alg».proof.Proof.FrameK.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1 x 1024 x 1024 block as a rectangle: every load and the one store of call 1's body go through it. -/
abbrev r1 : Rect S1x1024x1024 := Rect.unit (s := S1x1024x1024) ![0, 0, 0] S1x1024x1024.size inb_S1x1024x1024_S1x1024x1024_0_0_0

/-- What call 1's body leaves in its output window's buffer: its one store, the product of the two loaded blocks. -/
def out1_2 (x0 : Vec F S1x1024x1024 .f32) (x1 : Vec F S1x1024x1024 .bf16) : Vec F S1x1024x1024 .f32 :=
  View.canon [⟨r1, k1_pay1 (View.ld x0 r1) (View.ld x1 r1)⟩]

/-- The one store covers the buffer. -/
theorem cover1_2 (p0 : Vec F S1x1024x1024 .f32) (y : S1x1024x1024.Idx) :
    ∃ pc ∈ ([⟨r1, p0⟩] : List (View.Piece (Elt F) S1x1024x1024 .f32)), y ∈ pc.1.set :=
  View.cover_of_tiled [⟨r1, p0⟩] S1x1024x1024.size (by rfl) y

set_option maxHeartbeats 2000000 in
/-- Call 1's body on whole staging memrefs, the two inputs at their contents and the output at anything, runs to its
    continuation with the inputs as they were and the output's buffer at the product. -/
theorem sound_kernel1 (c : Dev nD) (E : Set ℕ) (i : grid1.Coords) (arg2 : Memref sig .tc .vmem S1x1024x1024 .f32) (harg2 : arg2.IsWhole)
    (arg3 : Memref sig .tc .vmem S1x1024x1024 .bf16) (harg3 : arg3.IsWhole) (arg4 : Memref sig .tc .vmem S1x1024x1024 .f32) (harg4 : arg4.IsWhole)
    (x0 : Vec F S1x1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Hand

end
-- ==== Proof.FrameK.Data.lean ====
/-
  The frame of the two-call program: what call 0's output window and accumulator hold after each point, the
  invariant that carries the accumulator from point to point, both calls' proof data, and the body obligations.
-/
import proofs.«137665_j43181601194856_2_alg».proof.Proof.FrameK.RunC
import proofs.«137665_j43181601194856_2_alg».proof.Proof.FrameK.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: what the body leaves in the output window's buffer is nothing it stored (the window is idle there and is not written back); a placeholder nothing consults. -/
def out0_A_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) : Vec F S1x1024x1024 .bf16 :=
  outV0.read (Elt F) (outV0.writes (Elt F) outV0.junk (kernelRun0_A c i arg2 harg2 arg3 harg3 arg4 harg4 arg5 harg5 arg6 harg6 arg7 harg7 arg8 harg8 arg9 harg9 arg10 harg10 hc0 hc1 x0 x1 x2 x3 x4 x5 x6).1)

/-- Case A: the pieces stored into the accumulator cover it. -/
theorem scover0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x1024.size (by sl_kernel_rfl) y

/-- Case A: what the body leaves in the accumulator, its stored pieces read back. -/
def sout0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) : Vec F S1024x1024 .f32 :=
  accV.read (Elt F) (accV.writes (Elt F) accV.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B: what the body leaves in the output window's buffer is nothing it stored (the window is idle there and is not written back); a placeholder nothing consults. -/
def out0_B_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) : Vec F S1x1024x1024 .bf16 :=
  outV0.read (Elt F) (outV0.writes (Elt F) outV0.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case B: the pieces stored into the accumulator cover it. -/
theorem scover0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x1024.size (by sl_kernel_rfl) y

/-- Case B: what the body leaves in the accumulator, its stored pieces read back. -/
def sout0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) : Vec F S1024x1024 .f32 :=
  accV.read (Elt F) (accV.writes (Elt F) accV.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C: what the body leaves in the output window's buffer: its one stored piece read back. -/
def out0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) : Vec F S1x1024x1024 .bf16 :=
  outV0.read (Elt F) (outV0.writes (Elt F) outV0.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C: the pieces stored into the accumulator cover it. -/
theorem scover0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x1024.size (by sl_kernel_rfl) y

/-- Case C: what the body leaves in the accumulator, its stored pieces read back. -/
def sout0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) : Vec F S1024x1024 .f32 :=
  accV.read (Elt F) (accV.writes (Elt F) accV.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-- Case C: its one store covers the output window's buffer. -/
theorem cover0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1x1024x1024.size (by sl_kernel_rfl) y

/-! ## What the output window and the accumulator hold after each point -/

/-- The pair (output window's buffer, accumulator) after the body at position `n`: the case the position selects
    (position modulo 16: 0, 15, or in between), run at the point's memrefs and input blocks, over the accumulator the
    point before left (the first case does not read it: it zeroes it). -/
def outsAt0 (c : Dev nD) : (n : ℕ) → n < cfg0.N → Vec F S1x1024x1024 .bf16 × Vec F S1024x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accM (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accM (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 16 = 0 then
      if h1 : (n + 1) % 16 = 15 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 16 = 15 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, whatever the call's body may use and need not describe (the
    accumulator at anything); afterwards the accumulator at what the point before left in it, beside call 1's staging
    buffers and the generator register, which the body does not touch. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ other0 c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ other0 c) ∗ (∃ r, prngReg c r)) := by
  cases n with
  | zero => exact absurd rfl hz
  | succ n => rfl

/-! ## Call 0's proof data -/

/-- The arrays as the call finds them; after the body each input's buffer at its block, the output window's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## Call 0's body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 16000000 in
/-- The body at any point. The inputs' memrefs hold their blocks; the position modulo 16 says which case the point
    is in; the invariant hands the body the accumulator at what the point before left (at anything at the very first
    point) and takes it back at this point's contents; call 1's staging buffers, the generator register and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold sout0_A; (try dsimp only)
    by_cases hz : t.val = 0
    ·
      rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    ·
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · by_cases h1 : t.val % 16 = 15
    · have hz : t.val ≠ 0 := by omega
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_7 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)
    · have hz : t.val ≠ 0 := by omega
      rw [Dat.leavesExact_idle (dat0 V c) 7 t (idleAt0_7 t (fun h => h1 ((hcond0_1 t).mp h))) (noFlush0_7 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation for call 0, at every point. -/
theorem body_obligation0 (c : Dev nD) : BodyObligation (dat0 (F := F) V c) (defs₀ (F := F)) Variants.none () Set.univ := fun t => by
  rw [bigSep_W0, bigSep_W0]
  exact sound_body0 V c t

/-- What a call's body may use and need not describe is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back: what the accumulator holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-! ## Call 1's proof data and body obligation -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameK.Main.lean ====
/-
  The frame of the two-call program: @main as three items — the four host conversions of the weight matrices,
  call 0, call 1 — run in order. Between two items every unscoped buffer of the core is held at a named valuation:
  the launch memory, then what the host conversions leave, then each call's arrays at what its write-backs leave
  and every other buffer as entered. The run's post reads every unscoped buffer at the last valuation; the frame
  claim follows because no item writes an argument, and the result array's contents are the last call's.
-/
import proofs.«137665_j43181601194856_2_alg».proof.Proof.FrameK.Data
import proofs.«137665_j43181601194856_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)
/-- After the host conversions (call 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After call 0: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After call 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_writes_sub hostOps0 _ hostOps0_writes (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

abbrev pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
/-- Call 0 as a segment: entered with every unscoped buffer at `W1`, left with them at `W2`. Its windows' arrays
    are split out of the unscoped buffers and put back at what the write-backs leave; the generator register goes into
    the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W2`, left with them at `W3`. Its windows' arrays
    are split out of the unscoped buffers and put back at what the write-backs leave; the generator register goes into
    the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched, and the result array ends at what call 1's write-backs leave. -/
theorem run_main : θ_run defs (onTc (τ := τ) (main (F := F))) ⟨m, fun _ => 0, ρ⟩ (fun r => ∀ c : Dev nD,
      r.2.mem ((c.tc : Thread nD τ).loc main_v5) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v5 (by decide))).trans (W3_arr m c 2),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.Kernel.Hand

end
-- ==== Proof.FrameKI.Base.lean ====
/-
  The frame of the two-call program, part 1: what both calls' runs are stated over.
  Call 0 walks a 4 x 16 grid (batch, row tile): at tile 0 it zeroes a 1024 x 1024 accumulator it keeps
  between points, at every tile it adds that tile's product to it, and at tile 15 it multiplies the
  accumulator by the two weight matrices and stores the batch's 1024 x 1024 result block. So the body
  has three control cases, told apart by the point's position modulo 16 (0; 1 to 14; 15), and its
  output window is written, and written back, at the points of position 15 only.
  Call 1 walks a 4 x 4 grid and stores one block per point.
  Here: each window's block at a point read off the arrays the call finds, the two branch conditions
  decided over the 64 points, where the output window is idle, and names for the staging and
  accumulator memrefs.
-/
import proofs.«137665_j43181601194856_2_alg».proof.Proof.Gen.KernelIdeal.Launch
import proofs.«137665_j43181601194856_2_alg».proof.Proof.Gen.KernelIdeal.Skeleton
import proofs.«137665_j43181601194856_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a call is entered with: every statement about a call is made at this parameter
variable (V : (c : Dev nD) → (b : Ref sig .tc) → Buf (Elt F) ((c : Thread nD τ).loc b))

/-! ## Call 0: the windows' blocks -/

/-- Window `w`'s block at point `t`, read off its array as call 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. Stated per window, at the window's literal number (the block's type
    reduces there), for any proof data whose array is the call's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## Call 0: the branch conditions -/

/-- The accumulator is zeroed: the point is the first row tile of its batch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The result block is computed and stored: the point is the last row tile of its batch. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Call 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from a batch's last tile nothing is stored into the output window and it is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At a batch's last tile it is live. -/
theorem liveAt0_7 : ∀ t : Fin cfg0.N, cond0_1 (grid0.coords t) → cfg0.idle 7 (grid0.coords t) = false := by decide +kernel

/-! ## Call 0: the memrefs the body is called with -/

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .bf16 := win0_7.stage (cfg0.slots t 7)
abbrev hs0_7 (t : Fin cfg0.N) : (ms0_7 t).IsWhole := hstage0_7 ((cfg0.slots t 7).cast nbuf0_7)
/-- The accumulator: a whole scoped buffer of the kernel's own, passed beside the windows. -/
abbrev accM : Memref sig .tc .vmem S1024x1024 .f32 := Memref.whole cc0_scratch0
/-- The accumulator and the output window's staging buffer as views: their contents are stated through them. -/
abbrev accV : View sig .tc .vmem S1024x1024 .f32 := accM.view
abbrev outV0 : View sig .tc .vmem S1x1024x1024 .bf16 := (Memref.whole cc0_stg7_0 : Memref sig .tc .vmem S1x1024x1024 .bf16).view

/-- Call 1's six staging buffers, each at some contents: scoped buffers that call 0 neither stages nor touches. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What a call's body may use and need not describe — the scoped buffers no window of it stages and the generator
    register — is, for call 0: the accumulator at some contents, call 1's staging buffers, the register at some state. -/
theorem PhiA0_eq (c : Dev nD) :
    (Pipeline.ΦA spec0 c : sProp 𝕄)
      = iprop(iprop((∃ d, owns (c : Thread nD τ) accM fullShare d) ∗ other0 c) ∗ (∃ r, prngReg c r)) := by
  unfold Pipeline.ΦA other0; rw [scopedRest0_eq]; simp only [accM, owns_whole]; try rfl

/-! ## Call 1: the windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)

end Cert.KernelIdeal.Hand

end
-- ==== Proof.FrameKI.RunA.lean ====
/-
  The frame of the two-call program: the body of call 0 run whole in one of its three control cases.
-/
import proofs.«137665_j43181601194856_2_alg».proof.Proof.FrameKI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of call 0 at a batch's first row tile: the accumulator is zeroed, then the tile's product is added; nothing is stored into the output window.
    On whole staging memrefs, the seven inputs at their contents, the body runs to its continuation with the inputs as they
    were, the accumulator with the pieces it stored written into it, and the output window's buffer handed back untouched.
    The pieces are found by running the body: they are the witness. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) :
    Σ' (L7 : List (View.Piece (Elt F) S1x1024x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__weff_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__weff_kernel_eq_skeleton]; unfold cc0__weff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.FrameKI.RunB.lean ====
/-
  The frame of the two-call program: the body of call 0 run whole in one of its three control cases.
-/
import proofs.«137665_j43181601194856_2_alg».proof.Proof.FrameKI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of call 0 at a row tile that is neither first nor last: the tile's product is added to what the accumulator held; nothing is stored into the output window.
    On whole staging memrefs, the seven inputs at their contents, the body runs to its continuation with the inputs as they
    were, the accumulator with the pieces it stored written into it, and the output window's buffer handed back untouched.
    The pieces are found by running the body: they are the witness. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) :
    Σ' (L7 : List (View.Piece (Elt F) S1x1024x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__weff_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__weff_kernel_eq_skeleton]; unfold cc0__weff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.FrameKI.RunC.lean ====
/-
  The frame of the two-call program: the body of call 0 run whole in one of its three control cases.
-/
import proofs.«137665_j43181601194856_2_alg».proof.Proof.FrameKI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of call 0 at a batch's last row tile: the tile's product is added, then the accumulator times the two weight matrices is stored whole into the output window.
    On whole staging memrefs, the seven inputs at their contents, the body runs to its continuation with the inputs as they
    were, the accumulator with the pieces it stored written into it, and the output window's buffer with its one stored piece written.
    The pieces are found by running the body: they are the witness. -/
noncomputable def kernelRun0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) :
    Σ' (L7 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__weff_kernel i arg2 harg2 arg3 harg3 arg4 harg4 arg5 harg5 arg6 harg6 arg7 harg7 arg8 harg8 arg9 harg9 arg10 harg10) K } := by
  refine ⟨?_, ?_, fun E K => ?run⟩
  case run =>
    simp only [cc0__weff_kernel_eq_skeleton]; unfold cc0__weff_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.FrameKI.Run1.lean ====
/-
  The frame of the two-call program: the body of call 1, which loads its query block and its weight block,
  multiplies them and stores the product whole into its output block.
-/
import proofs.«137665_j43181601194856_2_alg».proof.Proof.FrameKI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1 x 1024 x 1024 block as a rectangle: every load and the one store of call 1's body go through it. -/
abbrev r1 : Rect S1x1024x1024 := Rect.unit (s := S1x1024x1024) ![0, 0, 0] S1x1024x1024.size inb_S1x1024x1024_S1x1024x1024_0_0_0

/-- What call 1's body leaves in its output window's buffer: its one store, the product of the two loaded blocks. -/
def out1_2 (x0 : Vec F S1x1024x1024 .f32) (x1 : Vec F S1x1024x1024 .bf16) : Vec F S1x1024x1024 .f32 :=
  View.canon [⟨r1, k1_pay1 (View.ld x0 r1) (View.ld x1 r1)⟩]

/-- The one store covers the buffer. -/
theorem cover1_2 (p0 : Vec F S1x1024x1024 .f32) (y : S1x1024x1024.Idx) :
    ∃ pc ∈ ([⟨r1, p0⟩] : List (View.Piece (Elt F) S1x1024x1024 .f32)), y ∈ pc.1.set :=
  View.cover_of_tiled [⟨r1, p0⟩] S1x1024x1024.size (by rfl) y

set_option maxHeartbeats 2000000 in
/-- Call 1's body on whole staging memrefs, the two inputs at their contents and the output at anything, runs to its
    continuation with the inputs as they were and the output's buffer at the product. -/
theorem sound_kernel1 (c : Dev nD) (E : Set ℕ) (i : grid1.Coords) (arg2 : Memref sig .tc .vmem S1x1024x1024 .f32) (harg2 : arg2.IsWhole)
    (arg3 : Memref sig .tc .vmem S1x1024x1024 .bf16) (harg3 : arg3.IsWhole) (arg4 : Memref sig .tc .vmem S1x1024x1024 .f32) (harg4 : arg4.IsWhole)
    (x0 : Vec F S1x1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Hand

end
-- ==== Proof.FrameKI.Data.lean ====
/-
  The frame of the two-call program: what call 0's output window and accumulator hold after each point, the
  invariant that carries the accumulator from point to point, both calls' proof data, and the body obligations.
-/
import proofs.«137665_j43181601194856_2_alg».proof.Proof.FrameKI.RunC
import proofs.«137665_j43181601194856_2_alg».proof.Proof.FrameKI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: what the body leaves in the output window's buffer is nothing it stored (the window is idle there and is not written back); a placeholder nothing consults. -/
def out0_A_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) : Vec F S1x1024x1024 .bf16 :=
  outV0.read (Elt F) (outV0.writes (Elt F) outV0.junk (kernelRun0_A c i arg2 harg2 arg3 harg3 arg4 harg4 arg5 harg5 arg6 harg6 arg7 harg7 arg8 harg8 arg9 harg9 arg10 harg10 hc0 hc1 x0 x1 x2 x3 x4 x5 x6).1)

/-- Case A: the pieces stored into the accumulator cover it. -/
theorem scover0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x1024.size (by sl_kernel_rfl) y

/-- Case A: what the body leaves in the accumulator, its stored pieces read back. -/
def sout0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) : Vec F S1024x1024 .f32 :=
  accV.read (Elt F) (accV.writes (Elt F) accV.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B: what the body leaves in the output window's buffer is nothing it stored (the window is idle there and is not written back); a placeholder nothing consults. -/
def out0_B_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) : Vec F S1x1024x1024 .bf16 :=
  outV0.read (Elt F) (outV0.writes (Elt F) outV0.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case B: the pieces stored into the accumulator cover it. -/
theorem scover0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x1024.size (by sl_kernel_rfl) y

/-- Case B: what the body leaves in the accumulator, its stored pieces read back. -/
def sout0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) : Vec F S1024x1024 .f32 :=
  accV.read (Elt F) (accV.writes (Elt F) accV.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C: what the body leaves in the output window's buffer: its one stored piece read back. -/
def out0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) : Vec F S1x1024x1024 .bf16 :=
  outV0.read (Elt F) (outV0.writes (Elt F) outV0.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C: the pieces stored into the accumulator cover it. -/
theorem scover0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x1024.size (by sl_kernel_rfl) y

/-- Case C: what the body leaves in the accumulator, its stored pieces read back. -/
def sout0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) : Vec F S1024x1024 .f32 :=
  accV.read (Elt F) (accV.writes (Elt F) accV.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-- Case C: its one store covers the output window's buffer. -/
theorem cover0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1x1024x1024.size (by sl_kernel_rfl) y

/-! ## What the output window and the accumulator hold after each point -/

/-- The pair (output window's buffer, accumulator) after the body at position `n`: the case the position selects
    (position modulo 16: 0, 15, or in between), run at the point's memrefs and input blocks, over the accumulator the
    point before left (the first case does not read it: it zeroes it). -/
def outsAt0 (c : Dev nD) : (n : ℕ) → n < cfg0.N → Vec F S1x1024x1024 .bf16 × Vec F S1024x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accM (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) accM (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 16 = 0 then
      if h1 : (n + 1) % 16 = 15 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 16 = 15 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) accM (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, whatever the call's body may use and need not describe (the
    accumulator at anything); afterwards the accumulator at what the point before left in it, beside call 1's staging
    buffers and the generator register, which the body does not touch. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ other0 c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ other0 c) ∗ (∃ r, prngReg c r)) := by
  cases n with
  | zero => exact absurd rfl hz
  | succ n => rfl

/-! ## Call 0's proof data -/

/-- The arrays as the call finds them; after the body each input's buffer at its block, the output window's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## Call 0's body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 16000000 in
/-- The body at any point. The inputs' memrefs hold their blocks; the position modulo 16 says which case the point
    is in; the invariant hands the body the accumulator at what the point before left (at anything at the very first
    point) and takes it back at this point's contents; call 1's staging buffers, the generator register and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold sout0_A; (try dsimp only)
    by_cases hz : t.val = 0
    ·
      rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    ·
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · by_cases h1 : t.val % 16 = 15
    · have hz : t.val ≠ 0 := by omega
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_7 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)
    · have hz : t.val ≠ 0 := by omega
      rw [Dat.leavesExact_idle (dat0 V c) 7 t (idleAt0_7 t (fun h => h1 ((hcond0_1 t).mp h))) (noFlush0_7 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation for call 0, at every point. -/
theorem body_obligation0 (c : Dev nD) : BodyObligation (dat0 (F := F) V c) (defs₀ (F := F)) Variants.none () Set.univ := fun t => by
  rw [bigSep_W0, bigSep_W0]
  exact sound_body0 V c t

/-- What a call's body may use and need not describe is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back: what the accumulator holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-! ## Call 1's proof data and body obligation -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKI.Main.lean ====
/-
  The frame of the two-call program: @main as three items — the four host conversions of the weight matrices,
  call 0, call 1 — run in order. Between two items every unscoped buffer of the core is held at a named valuation:
  the launch memory, then what the host conversions leave, then each call's arrays at what its write-backs leave
  and every other buffer as entered. The run's post reads every unscoped buffer at the last valuation; the frame
  claim follows because no item writes an argument, and the result array's contents are the last call's.
-/
import proofs.«137665_j43181601194856_2_alg».proof.Proof.FrameKI.Data
import proofs.«137665_j43181601194856_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)
/-- After the host conversions (call 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After call 0: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After call 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_writes_sub hostOps0 _ hostOps0_writes (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

abbrev pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
/-- Call 0 as a segment: entered with every unscoped buffer at `W1`, left with them at `W2`. Its windows' arrays
    are split out of the unscoped buffers and put back at what the write-backs leave; the generator register goes into
    the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W2`, left with them at `W3`. Its windows' arrays
    are split out of the unscoped buffers and put back at what the write-backs leave; the generator register goes into
    the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched, and the result array ends at what call 1's write-backs leave. -/
theorem run_main : θ_run defs (onTc (τ := τ) (main (F := F))) ⟨m, fun _ => 0, ρ⟩ (fun r => ∀ c : Dev nD,
      r.2.mem ((c.tc : Thread nD τ).loc main_v5) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v5 (by decide))).trans (W3_arr m c 2),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Hand

end
-- ==== Proof.FrameKI.Pieces.lean ====
/-
  The frame of the two-call program: what the body of call 0 leaves in the accumulator and in the output
  window's buffer in each of its three control cases, as the named pure values of the skeleton.

  In every case the stored pieces are one covering store through the whole buffer at zero offsets, so what is
  read back is that store's value, and every load reads a whole staging buffer, so it reads the buffer's
  contents. A tile that is neither first nor last leaves the old accumulator plus the tile's product; the first
  tile stores the zero block, reads it back and adds the tile's product to it; the last tile adds its product and
  then stores, into the output window, the folded weight computed from the accumulator it has just stored.
-/
import proofs.«137665_j43181601194856_2_alg».proof.Proof.FrameKI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, however spelt. -/
theorem hz2 : (![0, 0] : Fin 2 → Nat) = fun _ => 0 := funext fun a => by fin_cases a <;> rfl
/-- The zero offsets of a rank-3 rectangle. -/
theorem hz3 : (![0, 0, 0] : Fin 3 → Nat) = fun _ => 0 := funext fun a => by fin_cases a <;> rfl

/-- A tile that is neither first nor last leaves, in the accumulator holding xs0, xs0 plus the tile's product. -/
theorem sout_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 : Vec F S1x256x1 .f32) (x3 x4 x5 x6 : Vec F S1024x1024 .bf16) (xs0 : Vec F S1024x1024 .f32) :
    sout0_B c i arg2 harg2 arg3 harg3 arg4 harg4 arg5 harg5 arg6 harg6 arg7 harg7 arg8 harg8 arg9 harg9 arg10 harg10 hc0 hc1 x0 x1 x2 x3 x4 x5 x6 xs0
      = k0_pay1 (k0_pay5 x0 x2 x3) (k0_pay6 x1 x2 x4) (k0_pay7 x0 x2 x3) (k0_pay8 x0 x2 x3) (k0_pay9 x0 x2 x3) k0_pay10 xs0 := by
  unfold sout0_B
  rw [View.read_writes_eq_canon _ _ _ (scover0_B c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1024x1024) hz2]
  simp only [View.readAt_eq_ld, harg2.read_unread, harg3.read_unread, harg4.read_unread, harg5.read_unread, harg6.read_unread, harg7.read_unread, harg8.read_unread, harg10.read_unread, View.ld_unit_zero (S := S1x256x1024) hz3, View.ld_unit_zero (S := S1x256x1) hz3, View.ld_unit_zero (S := S1024x1024) hz2]

/-- The last tile leaves the same in the accumulator. -/
theorem sout_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) :
    sout0_C c i arg2 harg2 arg3 harg3 arg4 harg4 arg5 harg5 arg6 harg6 arg7 harg7 arg8 harg8 arg9 harg9 arg10 harg10 hc0 hc1 x0 x1 x2 x3 x4 x5 x6 xs0
      = k0_pay1 (k0_pay5 x0 x2 x3) (k0_pay6 x1 x2 x4) (k0_pay7 x0 x2 x3) (k0_pay8 x0 x2 x3) (k0_pay9 x0 x2 x3) k0_pay10 xs0 := by
  unfold sout0_C
  rw [View.read_writes_eq_canon _ _ _ (scover0_C c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x1024) hz2]
  simp only [View.readAt_eq_ld, harg2.read_unread, harg3.read_unread, harg4.read_unread, harg5.read_unread, harg6.read_unread, harg7.read_unread, harg8.read_unread, harg10.read_unread, View.ld_unit_zero (S := S1x256x1024) hz3, View.ld_unit_zero (S := S1x256x1) hz3, View.ld_unit_zero (S := S1024x1024) hz2]

/-- The first tile stores the zero block, reads it back, and leaves the zero block plus the tile's product. -/
theorem sout_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 : Vec F S1x256x1 .f32) (x3 x4 x5 x6 : Vec F S1024x1024 .bf16) :
    sout0_A c i arg2 harg2 arg3 harg3 arg4 harg4 arg5 harg5 arg6 harg6 arg7 harg7 arg8 harg8 arg9 harg9 arg10 harg10 hc0 hc1 x0 x1 x2 x3 x4 x5 x6
      = k0_pay1 (k0_pay5 x0 x2 x3) (k0_pay6 x1 x2 x4) (k0_pay7 x0 x2 x3) (k0_pay8 x0 x2 x3) (k0_pay9 x0 x2 x3) k0_pay10 k0_pay3 := by
  unfold sout0_A
  rw [View.read_writes_eq_canon _ _ _ (scover0_A c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg5.read_unread, harg6.read_unread, harg7.read_unread, harg8.read_unread, harg10.read_unread, View.ld_unit_zero (S := S1x256x1024) hz3, View.ld_unit_zero (S := S1x256x1) hz3, View.ld_unit_zero (S := S1024x1024) hz2]

/-- The last tile leaves, in the output window's buffer, the folded weight computed from the accumulator it has
    just stored (the old accumulator plus the tile's product) and the two remaining weight matrices. -/
theorem out_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 : Vec F S1x256x1 .f32) (x3 x4 x5 x6 : Vec F S1024x1024 .bf16) (xs0 : Vec F S1024x1024 .f32) :
    out0_C_7 c i arg2 harg2 arg3 harg3 arg4 harg4 arg5 harg5 arg6 harg6 arg7 harg7 arg8 harg8 arg9 harg9 arg10 harg10 hc0 hc1 x0 x1 x2 x3 x4 x5 x6 xs0
      = k0_pay2 (k0_pay1 (k0_pay5 x0 x2 x3) (k0_pay6 x1 x2 x4) (k0_pay7 x0 x2 x3) (k0_pay8 x0 x2 x3) (k0_pay9 x0 x2 x3) k0_pay10 xs0) x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1024x1024) hz3, View.readCov_unit_zero (S := S1024x1024) _ hz2]
  simp only [View.readAt_eq_ld, harg2.read_unread, harg3.read_unread, harg4.read_unread, harg5.read_unread, harg6.read_unread, harg7.read_unread, harg8.read_unread, harg10.read_unread, View.ld_unit_zero (S := S1x256x1024) hz3, View.ld_unit_zero (S := S1x256x1) hz3, View.ld_unit_zero (S := S1024x1024) hz2]

end Cert.KernelIdeal.Hand

end
-- ==== Proof.AttnSpec.lean ====
/-
  Linear attention with the query and output projections folded into the key-value matrix:
  the two formulas the certificate joins, each read at one output element (batch b, row s, column w),
  as functions of the eight argument arrays  q, k, v : [4, 4096, 1024],  mk : [4, 4096, 1],
  Wk, Wv, Wq, Wo : [1024, 1024]  over the extended reals.

  Both sides first project and mask:   P x W (b, s, u) = (sum_j x[b,s,j] * W[j,u]) * mk[b,s,0].
  Reference:   kv[b,u,c]  = sum_s silu (P k Wk (b,s,u)) * P v Wv (b,s,c)          (one sum over all 4096 rows)
               out[b,s,w] = sum_c (sum_u (sum_a q[b,s,a] * Wq[a,u]) * kv[b,u,c]) * Wo[c,w].
  Kernel:      the rows come in 16 tiles of 256; tile t adds  sum_r swish (P k Wk (b, 256 t + r, u)) * P v Wv (b, 256 t + r, c)
               to an accumulator that starts at zero (a left-nested running sum), and after the last tile
               out[b,s,w] = sum_a q[b,s,a] * (sum_u Wq[a,u] * (sum_c acc[b,u,c] * Wo[c,w])).
  silu x = x * (1 / (1 + exp (-x)));  swish x is the overflow-free spelling  x * (if 0 <= x then 1 / (1 + exp (0 - x))
  else exp x / (1 + exp x)).  On real numbers the two spellings agree, a running sum is the sum, and the two
  bracketings of the triple matrix product agree; on the extended reals the last needs every entry finite.
  The float words for 0 and 1 are kept as words: both programs spell them the same way.
-/
import Idealize.ShloMosaic.PureOps.Ideal
import Idealize.ShloMosaic.Lib.ValueIdx

noncomputable section

namespace Cert.AttnSpec

open Idealize.ShloMosaic Idealize.ShloMosaic.ValueIdx

/-- A [4, 4096, 1024] array of extended reals. -/
abbrev T3 : Type := (⟨3, ![4, 4096, 1024]⟩ : Shape).Idx → EReal
/-- The [4, 4096, 1] mask. -/
abbrev M3 : Type := (⟨3, ![4, 4096, 1]⟩ : Shape).Idx → EReal
/-- A [1024, 1024] weight matrix. -/
abbrev W2 : Type := (⟨2, ![1024, 1024]⟩ : Shape).Idx → EReal

/-- The float word of 0.0 and of 1.0, read as extended reals. -/
def zero : EReal := Ideal.ofBits .f32 0x00000000#32
def one : EReal := Ideal.ofBits .f32 0x3F800000#32

/-- Row (b, s) of `x` against column `u` of `W`, times the row's mask. -/
def proj (x : T3) (W : W2) (mk : M3) (b : Fin 4) (s : Fin 4096) (u : Fin 1024) : EReal :=
  (∑ j : Fin 1024, x (ix3 b s j) * W (ix2 j u)) * mk (ix3 b s (0 : Fin 1))

/-- x * sigmoid x, the sigmoid spelt 1 / (1 + exp (-x)). -/
def silu (x : EReal) : EReal := x * Ideal.div one (one + Ideal.exp (-x))

/-- The argument the overflow-free sigmoid exponentiates: -x where 0 <= x, x elsewhere (never positive). -/
def safeArg (x : EReal) : EReal := Scalar.select (Ideal.cmp .oge x zero) (zero - x) x

/-- x * sigmoid x, the sigmoid spelt 1 / (1 + e) where 0 <= x and e / (1 + e) elsewhere, e = exp (safeArg x). -/
def swish (x : EReal) : EReal :=
  x * Scalar.select (Ideal.cmp .oge x zero)
        (Ideal.div one (one + Ideal.exp (safeArg x)))
        (Ideal.div (Ideal.exp (safeArg x)) (one + Ideal.exp (safeArg x)))

section
variable (q k v : T3) (mk : M3) (Wk Wv Wq Wo : W2)

/-- The reference's key-value matrix of batch `b`: one sum over all 4096 rows. -/
def kvRef (b : Fin 4) (u c : Fin 1024) : EReal :=
  ∑ s : Fin 4096, silu (proj k Wk mk b s u) * proj v Wv mk b s c

/-- The reference's output element. -/
def refOut (b : Fin 4) (s : Fin 4096) (w : Fin 1024) : EReal :=
  ∑ c : Fin 1024, (∑ u : Fin 1024, (∑ a : Fin 1024, q (ix3 b s a) * Wq (ix2 a u)) * kvRef k v mk Wk Wv b u c) * Wo (ix2 c w)

/-- Row `r` of tile `t` as a row of the whole array. -/
def rowOf (t : Fin 16) (r : Fin 256) : Fin 4096 := ⟨t.val * 256 + r.val, by have := t.isLt; have := r.isLt; omega⟩

/-- What tile `t` of batch `b` adds to the accumulator. -/
def tileKV (b : Fin 4) (t : Fin 16) (u c : Fin 1024) : EReal :=
  ∑ r : Fin 256, swish (proj k Wk mk b (rowOf t r) u) * proj v Wv mk b (rowOf t r) c

/-- The accumulator after tile `n`: it is reset to zero before tile 0 and every tile adds its part on the right. -/
def accKV (b : Fin 4) : (n : ℕ) → n < 16 → Fin 1024 → Fin 1024 → EReal
  | 0, h => fun u c => zero + tileKV k v mk Wk Wv b ⟨0, h⟩ u c
  | n + 1, h => fun u c => accKV b n (Nat.lt_of_succ_lt h) u c + tileKV k v mk Wk Wv b ⟨n + 1, h⟩ u c

/-- The kernel's output element: q against  Wq * (acc * Wo). -/
def kerOut (b : Fin 4) (s : Fin 4096) (w : Fin 1024) : EReal :=
  ∑ a : Fin 1024, q (ix3 b s a) * (∑ u : Fin 1024, Wq (ix2 a u) * (∑ c : Fin 1024, accKV k v mk Wk Wv b 15 (by decide) u c * Wo (ix2 c w)))

end

end Cert.AttnSpec

end
-- ==== Proof.AttnPay0.lean ====
/-
  The tile body of the first kernel call, read at an index over the extended reals.

  Each tile of 256 rows computes two masked projections (a [256, 1024] block times a [1024, 1024] weight
  matrix, every row then scaled by the row's mask entry), forms  x * sigmoid x  of the first projection in
  the overflow-free spelling, and adds to the [1024, 1024] accumulator the product of that, transposed,
  with the second projection:  acc (u, c) + sum over the tile's rows r of  swish (P1 (r, u)) * P2 (r, c).
  Read at an index, a matrix product into a zero accumulator is the sum over the contracted coordinate of
  the operands' products; a shape cast that drops a leading unit axis reads the operand at coordinate 0 there;
  a mask column broadcast along the rows reads the column at the row; every other operation is pointwise,
  and rounding to the narrower format is the identity on exact values.
-/
import proofs.«137665_j43181601194856_2_alg».proof.Proof.Gen.KernelIdeal.Skeleton
import proofs.«137665_j43181601194856_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.AttnPay0

open Idealize.ShloMosaic Idealize.ShloMosaic.ValueIdx Idealize.SL.Sem Cert.KernelIdeal Cert.KernelIdeal.Gen

/-! ### The two non-pointwise layout reads -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two matrix products into a zero accumulator -/

/-- Rows-by-columns product: the left operand's row coordinate is the result's. -/
theorem rows_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
/-- Its column coordinate is the contracted one. -/
theorem rows_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row coordinate is the contracted one. -/
theorem rows_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- Its column coordinate is the result's. -/
theorem rows_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- [256, 1024] times [1024, 1024], contracting the left operand's columns against the right operand's rows:
    at (r, u) the sum over j of  lhs (r, j) * rhs (j, u). -/
theorem matmul_rows_apply {φ₁ φ₂ : FTy} (lhs : FVec Ideal S256x1024 φ₁) (rhs : FVec Ideal S1024x1024 φ₂)
    (r : Fin 256) (u : Fin 1024) :
    matmul (F := Ideal) dot_S256x1024_S1024x1024_S256x1024_1_0_0_1_n_n none lhs rhs
        (constant (F := Ideal) S256x1024 .f32 0x00000000#32) (ix2 r u)
      = ∑ j : Fin 1024, lhs (ix2 r j) * rhs (ix2 j u) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r u)
      ((contrEquiv1 dot_S256x1024_S1024x1024_S256x1024_1_0_0_1_n_n 1024 rfl rfl).symm k) = ix2 r k :=
    funext fun a => Fin.ext (by
      match a with
      | ⟨0, _⟩ => exact rows_lhs_0 _ _
      | ⟨1, _⟩ => exact (rows_lhs_1 _ _).trans hk)
  have er : dot_S256x1024_S1024x1024_S256x1024_1_0_0_1_n_n.rhsIdx (ix2 r u)
      ((contrEquiv1 dot_S256x1024_S1024x1024_S256x1024_1_0_0_1_n_n 1024 rfl rfl).symm k) = ix2 k u :=
    funext fun a => Fin.ext (by
      match a with
      | ⟨0, _⟩ => exact (rows_rhs_0 _ _).trans hk
      | ⟨1, _⟩ => exact rows_rhs_1 _ _)
  rw [el, er]

/-- Columns-by-columns product: the left operand's row coordinate is the contracted one. -/
theorem cols_lhs_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
/-- Its column coordinate is the result's row coordinate. -/
theorem cols_lhs_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide),
    dif_pos (show (1 : Fin S256x1024.rank) ∈ dot_S256x1024_S256x1024_S1024x1024_0_0_1_1_n_n.lhsNonContracting by decide)]
  rfl
/-- The right operand's row coordinate is the contracted one. -/
theorem cols_rhs_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
/-- Its column coordinate is the result's column coordinate. -/
theorem cols_rhs_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide),
    dif_pos (show (1 : Fin S256x1024.rank) ∈ dot_S256x1024_S256x1024_S1024x1024_0_0_1_1_n_n.rhsNonContracting by decide)]
  rfl

/-- [256, 1024] transposed times [256, 1024], contracting the rows of both operands:
    at (u, c) the sum over r of  lhs (r, u) * rhs (r, c). -/
theorem matmul_cols_apply {φ₁ φ₂ : FTy} (lhs : FVec Ideal S256x1024 φ₁) (rhs : FVec Ideal S256x1024 φ₂)
    (u c : Fin 1024) :
    matmul (F := Ideal) dot_S256x1024_S256x1024_S1024x1024_0_0_1_1_n_n none lhs rhs
        (constant (F := Ideal) S1024x1024 .f32 0x00000000#32) (ix2 u c)
      = ∑ r : Fin 256, lhs (ix2 r u) * rhs (ix2 r c) := by
  simp only [matmul]
  rw [Ideal.matmul_constant_zero_apply,
    ← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 u c)
      ((contrEquiv1 dot_S256x1024_S256x1024_S1024x1024_0_0_1_1_n_n 256 rfl rfl).symm k) = ix2 k u :=
    funext fun a => Fin.ext (by
      match a with
      | ⟨0, _⟩ => exact (cols_lhs_0 _ _).trans hk
      | ⟨1, _⟩ => exact cols_lhs_1 _ _)
  have er : dot_S256x1024_S256x1024_S1024x1024_0_0_1_1_n_n.rhsIdx (ix2 u c)
      ((contrEquiv1 dot_S256x1024_S256x1024_S1024x1024_0_0_1_1_n_n 256 rfl rfl).symm k) = ix2 k c :=
    funext fun a => Fin.ext (by
      match a with
      | ⟨0, _⟩ => exact (cols_rhs_0 _ _).trans hk
      | ⟨1, _⟩ => exact cols_rhs_1 _ _)
  rw [el, er]

/-! ### The payloads at an index -/

/-- The first masked projection of the tile: the key block against the first weight matrix, every row
    scaled by the row's mask entry. -/
theorem pay5_at (v3 : Vec Ideal S1x256x1024 .f32) (v9 : Vec Ideal S1x256x1 .f32) (v11 : Vec Ideal S1024x1024 .bf16)
    (r : Fin 256) (u : Fin 1024) :
    k0_pay5 (F := Ideal) v3 v9 v11 (ix2 r u)
      = (∑ j : Fin 1024, v3 (ix3 (0 : Fin 1) r j) * v11 (ix2 j u)) * v9 (ix3 (0 : Fin 1) r (0 : Fin 1)) := by
  unfold k0_pay5 k0_pay4
  refine congrArg₂ (· * ·) ?_ ?_
  · refine (matmul_rows_apply _ _ r u).trans (Finset.sum_congr rfl fun j _ => congrArg₂ (· * ·) ?_ ?_)
    · exact shapeCast_1ab_ab_apply v3 _ r j
    · exact congrFun (shapeCast_self v11 _) (ix2 j u)
  · exact (broadcastTo_a1_ab_apply _ _ r u).trans (shapeCast_1ab_ab_apply v9 _ r (0 : Fin 1))

/-- The second masked projection of the tile: the value block against the second weight matrix. -/
theorem pay6_at (v6 : Vec Ideal S1x256x1024 .f32) (v9 : Vec Ideal S1x256x1 .f32) (v13 : Vec Ideal S1024x1024 .bf16)
    (r : Fin 256) (c : Fin 1024) :
    k0_pay6 (F := Ideal) v6 v9 v13 (ix2 r c)
      = (∑ j : Fin 1024, v6 (ix3 (0 : Fin 1) r j) * v13 (ix2 j c)) * v9 (ix3 (0 : Fin 1) r (0 : Fin 1)) := by
  unfold k0_pay6 k0_pay4
  refine congrArg₂ (· * ·) ?_ ?_
  · refine (matmul_rows_apply _ _ r c).trans (Finset.sum_congr rfl fun j _ => congrArg₂ (· * ·) ?_ ?_)
    · exact shapeCast_1ab_ab_apply v6 _ r j
    · exact congrFun (shapeCast_self v13 _) (ix2 j c)
  · exact (broadcastTo_a1_ab_apply _ _ r c).trans (shapeCast_1ab_ab_apply v9 _ r (0 : Fin 1))

/-- The accumulator's starting value: the word of 0.0 at every index. -/
theorem pay3_at (i : S1024x1024.Idx) : k0_pay3 (F := Ideal) i = Cert.AttnSpec.zero := by
  unfold k0_pay3
  exact congrFun (shapeCast_self _ _) i

/-- The accumulator's update over arbitrary operands: at (u, c) the old entry plus the sum over the tile's
    rows of  (x * (the selected sigmoid branch)) (r, u) * y (r, c). -/
theorem pay1_gen (v18 v20 v26 : FVec Ideal S256x1024 .f32) (v28 : IVec S256x1024 1) (v32 v33 : FVec Ideal S256x1024 .f32)
    (v41 : Vec Ideal S1024x1024 .f32) (u c : Fin 1024) :
    k0_pay1 (F := Ideal) v18 v20 v26 v28 v32 v33 v41 (ix2 u c)
      = v41 (ix2 u c) + ∑ r : Fin 256,
          (v18 (ix2 r u) * Scalar.select (v28 (ix2 r u)) (v32 (ix2 r u))
              (Ideal.div (v26 (ix2 r u)) (v33 (ix2 r u) + v26 (ix2 r u)))) * v20 (ix2 r c) := by
  unfold k0_pay1
  refine (congrFun (shapeCast_self _ _) (ix2 u c)).trans ?_
  exact congrArg (v41 (ix2 u c) + ·) (matmul_cols_apply _ _ u c)

/-- The accumulator's update of the tile: at (u, c) the old entry plus the sum over the tile's rows of
    swish (first projection at (r, u)) * (second projection at (r, c)). -/
theorem pay1_at (v3 v6 : Vec Ideal S1x256x1024 .f32) (v9 : Vec Ideal S1x256x1 .f32) (v11 v13 : Vec Ideal S1024x1024 .bf16)
    (v41 : Vec Ideal S1024x1024 .f32) (u c : Fin 1024) :
    k0_pay1 (F := Ideal) (k0_pay5 v3 v9 v11) (k0_pay6 v6 v9 v13) (k0_pay7 v3 v9 v11) (k0_pay8 v3 v9 v11)
        (k0_pay9 v3 v9 v11) k0_pay10 v41 (ix2 u c)
      = v41 (ix2 u c) + ∑ r : Fin 256,
          Cert.AttnSpec.swish (k0_pay5 (F := Ideal) v3 v9 v11 (ix2 r u)) * k0_pay6 (F := Ideal) v6 v9 v13 (ix2 r c) := by
  refine (pay1_gen _ _ _ _ _ _ v41 u c).trans ?_
  refine congrArg (v41 (ix2 u c) + ·) (Finset.sum_congr rfl fun r _ => ?_)
  rfl

end Cert.AttnPay0

end
-- ==== Proof.FrameKI.Acc.lean ====
/-
  Call 0's accumulator, point by point, is the specification's running sum. Point t of the 4 x 16 grid is batch
  t / 16, row tile t % 16: the key, value and mask windows' block there is rows 256 (t % 16) … 256 (t % 16) + 255 of
  batch t / 16, the four weight windows' block is the whole matrix. One tile's step adds that tile's product to what
  the accumulator held; at a batch's first tile the accumulator is the zero block; so after point t it holds the
  running sum of batch t / 16 up to tile t % 16 — by induction on the point.
-/
import proofs.«137665_j43181601194856_2_alg».proof.Proof.FrameKI.Pieces
import proofs.«137665_j43181601194856_2_alg».proof.Proof.AttnSpec
import proofs.«137665_j43181601194856_2_alg».proof.Proof.AttnPay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps of call 0's eight windows, decided over the 64 points. -/
theorem idx0 : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 16 ∧ win0_7.index t (1 : Fin 3) = 0 ∧ win0_7.index t (2 : Fin 3) = 0 :=
  (by decide +kernel : ∀ t : Fin grid0.N, _)

/-- The batch and the row tile of point `t`. -/
def batchOf (t : Fin cfg0.N) : Fin 4 := ⟨t.val / 16, by have := t.isLt; have : cfg0.N = 64 := N_0; omega⟩
def tileOf (t : Fin cfg0.N) : Fin 16 := ⟨t.val % 16, by omega⟩

/-! ## A window's block is a part of its array -/

theorem blk0_0 (c : Dev nD) (t : Fin cfg0.N) (r : Fin 256) (j : Fin 1024) :
    iblk0 V c 0 t (ix3 (0 : Fin 1) r j) = V c main_arg1 (ix3 (batchOf t) (Cert.AttnSpec.rowOf (tileOf t) r) j) := by
  obtain ⟨e0, e1, e2, -⟩ := idx0 t
  unfold iblk0
  rw [View.read_apply]
  show V c main_arg1 (((cfg0.win 0).blk t).view.emb (ix3 (0 : Fin 1) r j)) = _
  congr 1
  funext a
  apply Fin.ext
  match a with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 1024 + 1 * j.val = j.val; omega
theorem blk0_1 (c : Dev nD) (t : Fin cfg0.N) (r : Fin 256) (j : Fin 1024) :
    iblk0 V c 1 t (ix3 (0 : Fin 1) r j) = V c main_arg2 (ix3 (batchOf t) (Cert.AttnSpec.rowOf (tileOf t) r) j) := by
  obtain ⟨-, -, -, e0, e1, e2, -⟩ := idx0 t
  unfold iblk0
  rw [View.read_apply]
  show V c main_arg2 (((cfg0.win 1).blk t).view.emb (ix3 (0 : Fin 1) r j)) = _
  congr 1
  funext a
  apply Fin.ext
  match a with
  | ⟨0, _⟩ => show win0_1.index t (0 : Fin 3) * 1 + 1 * 0 = t.val / 16; omega
  | ⟨1, _⟩ => show win0_1.index t (1 : Fin 3) * 256 + 1 * r.val = t.val % 16 * 256 + r.val; omega
  | ⟨2, _⟩ => show win0_1.index t (2 : Fin 3) * 1024 + 1 * j.val = j.val; omega
theorem blk0_2 (c : Dev nD) (t : Fin cfg0.N) (r : Fin 256) :
    iblk0 V c 2 t (ix3 (0 : Fin 1) r (0 : Fin 1)) = V c main_arg3 (ix3 (batchOf t) (Cert.AttnSpec.rowOf (tileOf t) r) (0 : Fin 1)) := by
  obtain ⟨-, -, -, -, -, -, e0, e1, e2, -⟩ := idx0 t
  unfold iblk0
  rw [View.read_apply]
  show V c main_arg3 (((cfg0.win 2).blk t).view.emb (ix3 (0 : Fin 1) r (0 : Fin 1))) = _
  congr 1
  funext a
  apply Fin.ext
  match a with
  | ⟨0, _⟩ => show win0_2.index t (0 : Fin 3) * 1 + 1 * 0 = t.val / 16; omega
  | ⟨1, _⟩ => show win0_2.index t (1 : Fin 3) * 256 + 1 * r.val = t.val % 16 * 256 + r.val; omega
  | ⟨2, _⟩ => show win0_2.index t (2 : Fin 3) * 1 + 1 * 0 = 0; omega
theorem blk0_3 (c : Dev nD) (t : Fin cfg0.N) (i j : Fin 1024) :
    iblk0 V c 3 t (ix2 i j) = V c main_v0 (ix2 i j) := by
  have e := idx0 t
  obtain ⟨-, -, -, -, -, -, -, -, -, e30, e31, e40, e41, e50, e51, e60, e61, -⟩ := e
  unfold iblk0
  rw [View.read_apply]
  show V c main_v0 (((cfg0.win 3).blk t).view.emb (ix2 i j)) = _
  congr 1
  funext a
  apply Fin.ext
  match a with
  | ⟨0, _⟩ => show win0_3.index t (0 : Fin 2) * 1024 + 1 * i.val = i.val; omega
  | ⟨1, _⟩ => show win0_3.index t (1 : Fin 2) * 1024 + 1 * j.val = j.val; omega
theorem blk0_4 (c : Dev nD) (t : Fin cfg0.N) (i j : Fin 1024) :
    iblk0 V c 4 t (ix2 i j) = V c main_v1 (ix2 i j) := by
  have e := idx0 t
  obtain ⟨-, -, -, -, -, -, -, -, -, e30, e31, e40, e41, e50, e51, e60, e61, -⟩ := e
  unfold iblk0
  rw [View.read_apply]
  show V c main_v1 (((cfg0.win 4).blk t).view.emb (ix2 i j)) = _
  congr 1
  funext a
  apply Fin.ext
  match a with
  | ⟨0, _⟩ => show win0_4.index t (0 : Fin 2) * 1024 + 1 * i.val = i.val; omega
  | ⟨1, _⟩ => show win0_4.index t (1 : Fin 2) * 1024 + 1 * j.val = j.val; omega
theorem blk0_5 (c : Dev nD) (t : Fin cfg0.N) (i j : Fin 1024) :
    iblk0 V c 5 t (ix2 i j) = V c main_v2 (ix2 i j) := by
  have e := idx0 t
  obtain ⟨-, -, -, -, -, -, -, -, -, e30, e31, e40, e41, e50, e51, e60, e61, -⟩ := e
  unfold iblk0
  rw [View.read_apply]
  show V c main_v2 (((cfg0.win 5).blk t).view.emb (ix2 i j)) = _
  congr 1
  funext a
  apply Fin.ext
  match a with
  | ⟨0, _⟩ => show win0_5.index t (0 : Fin 2) * 1024 + 1 * i.val = i.val; omega
  | ⟨1, _⟩ => show win0_5.index t (1 : Fin 2) * 1024 + 1 * j.val = j.val; omega
theorem blk0_6 (c : Dev nD) (t : Fin cfg0.N) (i j : Fin 1024) :
    iblk0 V c 6 t (ix2 i j) = V c main_v3 (ix2 i j) := by
  have e := idx0 t
  obtain ⟨-, -, -, -, -, -, -, -, -, e30, e31, e40, e41, e50, e51, e60, e61, -⟩ := e
  unfold iblk0
  rw [View.read_apply]
  show V c main_v3 (((cfg0.win 6).blk t).view.emb (ix2 i j)) = _
  congr 1
  funext a
  apply Fin.ext
  match a with
  | ⟨0, _⟩ => show win0_6.index t (0 : Fin 2) * 1024 + 1 * i.val = i.val; omega
  | ⟨1, _⟩ => show win0_6.index t (1 : Fin 2) * 1024 + 1 * j.val = j.val; omega

/-! ## The arrays call 0 reads, as the specification's arguments -/

abbrev aK (c : Dev nD) : Cert.AttnSpec.T3 := V c main_arg1
abbrev aV (c : Dev nD) : Cert.AttnSpec.T3 := V c main_arg2
abbrev aM (c : Dev nD) : Cert.AttnSpec.M3 := V c main_arg3
abbrev aWk (c : Dev nD) : Cert.AttnSpec.W2 := V c main_v0
abbrev aWv (c : Dev nD) : Cert.AttnSpec.W2 := V c main_v1
abbrev aWq (c : Dev nD) : Cert.AttnSpec.W2 := V c main_v2
abbrev aWo (c : Dev nD) : Cert.AttnSpec.W2 := V c main_v3

/-! ## One tile's step -/

/-- At point `t` the body's accumulator update, over any accumulator contents, adds tile `t % 16` of batch `t / 16`. -/
theorem step_at (c : Dev nD) (t : Fin cfg0.N) (acc : Vec Ideal S1024x1024 .f32) (u c' : Fin 1024) :
    k0_pay1 (F := Ideal) (k0_pay5 (iblk0 V c 0 t) (iblk0 V c 2 t) (iblk0 V c 3 t)) (k0_pay6 (iblk0 V c 1 t) (iblk0 V c 2 t) (iblk0 V c 4 t))
        (k0_pay7 (iblk0 V c 0 t) (iblk0 V c 2 t) (iblk0 V c 3 t)) (k0_pay8 (iblk0 V c 0 t) (iblk0 V c 2 t) (iblk0 V c 3 t))
        (k0_pay9 (iblk0 V c 0 t) (iblk0 V c 2 t) (iblk0 V c 3 t)) k0_pay10 acc (ix2 u c')
      = acc (ix2 u c') + Cert.AttnSpec.tileKV (aK V c) (aV V c) (aM V c) (aWk V c) (aWv V c) (batchOf t) (tileOf t) u c' := by
  rw [Cert.AttnPay0.pay1_at]
  congr 1
  unfold Cert.AttnSpec.tileKV
  refine Finset.sum_congr rfl fun r _ => ?_
  rw [Cert.AttnPay0.pay5_at, Cert.AttnPay0.pay6_at]
  unfold Cert.AttnSpec.proj
  simp only [blk0_0, blk0_1, blk0_2, blk0_3, blk0_4]

/-! ## The accumulator after each point -/

theorem accKV_congr (k v : Cert.AttnSpec.T3) (mk : Cert.AttnSpec.M3) (Wk Wv : Cert.AttnSpec.W2) {b b' : Fin 4} {n n' : ℕ} (h : n < 16) (h' : n' < 16)
    (hb : b = b') (hn : n = n') : Cert.AttnSpec.accKV k v mk Wk Wv b n h = Cert.AttnSpec.accKV k v mk Wk Wv b' n' h' := by
  subst hb; subst hn; rfl

/-- After point `n` the accumulator holds the running sum of batch `n / 16` up to tile `n % 16`. -/
theorem acc_eq (c : Dev nD) : ∀ (n : ℕ) (h : n < cfg0.N) (u c' : Fin 1024),
    (outsAt0 V c n h).2 (ix2 u c') = Cert.AttnSpec.accKV (aK V c) (aV V c) (aM V c) (aWk V c) (aWv V c) (batchOf ⟨n, h⟩) (n % 16) (Nat.mod_lt _ (by decide)) u c'
  | 0, h, u, c' => by
    rw [outsAt0_A V c ⟨0, h⟩ rfl (by show ¬(0 % 16 = 15); decide)]
    dsimp only
    rw [sout_A, step_at V c ⟨0, h⟩, Cert.AttnPay0.pay3_at]
    rfl
  | n + 1, h, u, c' => by
    have hN : cfg0.N = 64 := N_0
    by_cases h0 : (n + 1) % 16 = 0
    · have h1 : ¬(n + 1) % 16 = 15 := by omega
      rw [outsAt0_A V c ⟨n + 1, h⟩ h0 h1]
      dsimp only
      rw [sout_A, step_at V c ⟨n + 1, h⟩, Cert.AttnPay0.pay3_at]
      rw [accKV_congr _ _ _ _ _ (n := (n + 1) % 16) (n' := 0) _ (by decide) rfl h0]
      show Cert.AttnSpec.zero + _ = Cert.AttnSpec.zero + _
      congr 2
      exact Fin.ext h0
    · have hb : batchOf ⟨n + 1, h⟩ = batchOf ⟨n, Nat.lt_of_succ_lt h⟩ := Fin.ext (by show (n + 1) / 16 = n / 16; omega)
      have hn : (n + 1) % 16 = n % 16 + 1 := by omega
      have ht : tileOf ⟨n + 1, h⟩ = ⟨n % 16 + 1, by omega⟩ := Fin.ext hn
      have hstep : ∀ acc : Vec Ideal S1024x1024 .f32, (∀ u c', acc (ix2 u c') = Cert.AttnSpec.accKV (aK V c) (aV V c) (aM V c) (aWk V c) (aWv V c) (batchOf ⟨n, Nat.lt_of_succ_lt h⟩) (n % 16) (Nat.mod_lt _ (by decide)) u c') →
          acc (ix2 u c') + Cert.AttnSpec.tileKV (aK V c) (aV V c) (aM V c) (aWk V c) (aWv V c) (batchOf ⟨n + 1, h⟩) (tileOf ⟨n + 1, h⟩) u c'
            = Cert.AttnSpec.accKV (aK V c) (aV V c) (aM V c) (aWk V c) (aWv V c) (batchOf ⟨n + 1, h⟩) ((n + 1) % 16) (Nat.mod_lt _ (by decide)) u c' := by
        intro acc hacc
        rw [accKV_congr _ _ _ _ _ (n := (n + 1) % 16) (n' := n % 16 + 1) _ (by omega) hb hn, hacc, hb, ht]
        rfl
      by_cases h1 : (n + 1) % 16 = 15
      · rw [outsAt0_C V c ⟨n + 1, h⟩ h0 h1]
        dsimp only
        rw [sout_C, step_at V c ⟨n + 1, h⟩]
        exact hstep _ (fun u c' => acc_eq c n (Nat.lt_of_succ_lt h) u c')
      · rw [outsAt0_B V c ⟨n + 1, h⟩ h0 h1]
        dsimp only
        rw [sout_B, step_at V c ⟨n + 1, h⟩]
        exact hstep _ (fun u c' => acc_eq c n (Nat.lt_of_succ_lt h) u c')

end Cert.KernelIdeal.Hand

end
-- ==== Proof.AttnPay1.lean ====
/-
  The kernel's three plain matrix products, read at an index.

  Both kernel bodies multiply [1024, 1024] matrices with the second axis of the left factor contracted against the
  first axis of the right one, into an accumulator that is the zero matrix; read at (i, j) such a product is
  sum_k x[i,k] * y[k,j]. Around the products there are only operations that do not change an entry: the conversion
  to the narrower float type (the identity on exact numbers), a shape cast to the same shape, and a shape cast that
  adds or drops a leading axis of size 1, which reads (0, i, j) at (i, j) and back.
    The first body's result block is  Wq * (acc * Wo):  at (0, a, w),  sum_u Wq[a,u] * (sum_c acc[u,c] * Wo[c,w]).
    The second body's result block is  q * W:           at (0, s, w),  sum_a q[0,s,a] * W[0,a,w].
-/
import proofs.«137665_j43181601194856_2_alg».proof.Proof.Gen.KernelIdeal.Skeleton
import proofs.«137665_j43181601194856_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.AttnPay1

open Cert.KernelIdeal Cert.KernelIdeal.Gen Idealize.ShloMosaic Idealize.ShloMosaic.ValueIdx

/-! ## One product at an index -/

/-- Left index of the product: the result's row and the contraction index give (i, k). -/
theorem lhs_at (i j : Fin 1024) (q : dot_S1024x1024_S1024x1024_S1024x1024_1_0_0_1_n_n.contr.Idx) (k : Fin 1024)
    (hk : (q ⟨0, by decide⟩).val = k.val) :
    dot_S1024x1024_S1024x1024_S1024x1024_1_0_0_1_n_n.lhsIdx (ix2 i j) q = ix2 i k :=
  funext fun a => Fin.ext (by
    match a with
    | ⟨0, _⟩ =>
      show (dot_S1024x1024_S1024x1024_S1024x1024_1_0_0_1_n_n.lhsIdx (ix2 i j) q 0).val = i.val
      unfold DotDims.lhsIdx
      rw [dif_neg (show ¬(0 : Fin S1024x1024.rank) ∈ dot_S1024x1024_S1024x1024_S1024x1024_1_0_0_1_n_n.lhsBatch by decide),
        dif_pos (show (0 : Fin S1024x1024.rank) ∈ dot_S1024x1024_S1024x1024_S1024x1024_1_0_0_1_n_n.lhsNonContracting by decide)]
      rfl
    | ⟨1, _⟩ =>
      exact (dot_S1024x1024_S1024x1024_S1024x1024_1_0_0_1_n_n.lhsIdx_val_of_single rfl (ix2 i j) q).trans hk)

/-- Right index of the product: the contraction index and the result's column give (k, j). -/
theorem rhs_at (i j : Fin 1024) (q : dot_S1024x1024_S1024x1024_S1024x1024_1_0_0_1_n_n.contr.Idx) (k : Fin 1024)
    (hk : (q ⟨0, by decide⟩).val = k.val) :
    dot_S1024x1024_S1024x1024_S1024x1024_1_0_0_1_n_n.rhsIdx (ix2 i j) q = ix2 k j :=
  funext fun a => Fin.ext (by
    match a with
    | ⟨0, _⟩ =>
      exact (dot_S1024x1024_S1024x1024_S1024x1024_1_0_0_1_n_n.rhsIdx_val_of_single rfl (ix2 i j) q).trans hk
    | ⟨1, _⟩ =>
      show (dot_S1024x1024_S1024x1024_S1024x1024_1_0_0_1_n_n.rhsIdx (ix2 i j) q 1).val = j.val
      unfold DotDims.rhsIdx
      rw [dif_neg (show ¬(1 : Fin S1024x1024.rank) ∈ dot_S1024x1024_S1024x1024_S1024x1024_1_0_0_1_n_n.rhsBatch by decide),
        dif_pos (show (1 : Fin S1024x1024.rank) ∈ dot_S1024x1024_S1024x1024_S1024x1024_1_0_0_1_n_n.rhsNonContracting by decide)]
      rfl)

/-- The product into the zero matrix, at (i, j): the sum over the contracted coordinate. -/
theorem mm_at {φ₁ φ₂ : FTy} (x : FVec Ideal S1024x1024 φ₁) (y : FVec Ideal S1024x1024 φ₂) (i j : Fin 1024) :
    matmul (F := Ideal) dot_S1024x1024_S1024x1024_S1024x1024_1_0_0_1_n_n none x y (constant (F := Ideal) S1024x1024 .f32 0x00000000#32) (ix2 i j)
      = ∑ k : Fin 1024, x (ix2 i k) * y (ix2 k j) := by
  refine (Ideal.matmul_constant_zero_apply dot_S1024x1024_S1024x1024_S1024x1024_1_0_0_1_n_n none x y (ix2 i j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  rw [lhs_at i j _ k hk, rhs_at i j _ k hk]

/-! ## The two bodies -/

/-- The first body's result block: Wq * (acc * Wo). -/
theorem pay2_at (v49 : Vec Ideal S1024x1024 .f32) (v51 v53 : Vec Ideal S1024x1024 .bf16) (a w : Fin 1024) :
    k0_pay2 (F := Ideal) v49 v51 v53 (ix3 (0 : Fin 1) a w)
      = ∑ u : Fin 1024, v51 (ix2 a u) * (∑ c : Fin 1024, v49 (ix2 u c) * v53 (ix2 c w)) := by
  unfold k0_pay2
  refine (shapeCast_ab_1ab_apply _ _ (0 : Fin 1) a w).trans ?_
  refine (mm_at _ _ a w).trans ?_
  refine Finset.sum_congr rfl fun u _ => ?_
  rw [shapeCast_self]
  refine congrArg (v51 (ix2 a u) * ·) ?_
  refine (mm_at _ _ u w).trans ?_
  refine Finset.sum_congr rfl fun c _ => ?_
  rw [shapeCast_self]
  rfl

/-- The second body's result block: the query block times the folded weights. -/
theorem k1_pay1_at (v0 : Vec Ideal S1x1024x1024 .f32) (v3' : Vec Ideal S1x1024x1024 .bf16) (s w : Fin 1024) :
    k1_pay1 (F := Ideal) v0 v3' (ix3 (0 : Fin 1) s w)
      = ∑ a : Fin 1024, v0 (ix3 (0 : Fin 1) s a) * v3' (ix3 (0 : Fin 1) a w) := by
  unfold k1_pay1
  refine (shapeCast_ab_1ab_apply _ _ (0 : Fin 1) s w).trans ?_
  refine (mm_at _ _ s w).trans ?_
  refine Finset.sum_congr rfl fun a _ => ?_
  refine congrArg₂ (· * ·) ?_ ?_
  · exact shapeCast_1ab_ab_apply v0 _ s a
  · exact shapeCast_1ab_ab_apply v3' _ a w

end Cert.AttnPay1

end
-- ==== Proof.FrameKI.Final0.lean ====
/-
  What call 0 leaves in its result array [4, 1024, 1024]: batch b's block is Wq · (acc_b · Wo), acc_b the running sum
  of batch b after its last row tile. The window is written back at the points of position 15 modulo 16 only, one per
  batch, and those four blocks cover the array.
-/
import proofs.«137665_j43181601194856_2_alg».proof.Proof.FrameKI.Acc
import proofs.«137665_j43181601194856_2_alg».proof.Proof.AttnPay1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Call 0's result array, index by index. -/
def G0 (c : Dev nD) : S4x1024x1024.Idx → EReal := fun i =>
  ∑ u : Fin 1024, aWq V c (ix2 (i 1) u) * ∑ c' : Fin 1024,
    Cert.AttnSpec.accKV (aK V c) (aV V c) (aM V c) (aWk V c) (aWv V c) (i 0) 15 (by decide) u c' * aWo V c (ix2 c' (i 2))

/-- What a flushing point writes back is its batch's block of `G0`. -/
theorem flushed0_eq (c : Dev nD) (t : Fin cfg0.N) (hf : (cfg0.win 7).flush t = true) :
    (dat0 V c).flushed 7 t = ((cfg0.win 7).blk t).view.read (Elt Ideal) (G0 V c) := by
  have h15 : t.val % 16 = 15 := (flush0_7 t).mp hf
  have h0 : ¬t.val % 16 = 0 := by omega
  have hacc : ∀ u c' : Fin 1024, (outsAt0 V c t.val t.isLt).2 (ix2 u c')
      = Cert.AttnSpec.accKV (aK V c) (aV V c) (aM V c) (aWk V c) (aWv V c) (batchOf t) 15 (by decide) u c' := fun u c' =>
    (acc_eq V c t.val t.isLt u c').trans (congrFun (congrFun (accKV_congr _ _ _ _ _ _ _ rfl h15) u) c')
  obtain ⟨-, -, -, -, -, -, -, -, -, -, -, -, -, -, -, -, -, e70, e71, e72⟩ := idx0 t
  show (cfg0.win 7).cut (grid0.coords t) ((dat0 V c).after 7 t) = _
  rw [after0_7]
  funext j
  obtain ⟨p, a, w, rfl⟩ : ∃ (p : Fin 1) (a w : Fin 1024), j = ix3 p a w := ⟨j 0, j 1, j 2, eq_ix3 j⟩
  obtain rfl : p = 0 := Subsingleton.elim _ _
  show (outsAt0 V c t.val t.isLt).1 (ix3 (0 : Fin 1) a w) = G0 V c (((cfg0.win 7).blk t).view.emb (ix3 (0 : Fin 1) a w))
  have hout : (outsAt0 V c t.val t.isLt).1 = k0_pay2 (F := Ideal) (outsAt0 V c t.val t.isLt).2 (iblk0 V c 5 t) (iblk0 V c 6 t) := by
    rw [outsAt0_C V c t h0 h15]
    dsimp only
    rw [out_C, sout_C]
  rw [hout, Cert.AttnPay1.pay2_at]
  have hemb : ((cfg0.win 7).blk t).view.emb (ix3 (0 : Fin 1) a w) = ix3 (batchOf t) a w := by
    funext d
    apply Fin.ext
    match d with
    | ⟨0, _⟩ => show win0_7.index t (0 : Fin 3) * 1 + 1 * 0 = t.val / 16; omega
    | ⟨1, _⟩ => show win0_7.index t (1 : Fin 3) * 1024 + 1 * a.val = a.val; omega
    | ⟨2, _⟩ => show win0_7.index t (2 : Fin 3) * 1024 + 1 * w.val = w.val; omega
  rw [hemb]
  unfold G0
  refine Finset.sum_congr rfl fun u _ => ?_
  rw [blk0_5]
  congr 1
  refine Finset.sum_congr rfl fun c' _ => ?_
  rw [blk0_6, hacc]

/-- An index of the result array is in point `t`'s block iff each coordinate is in the block's range on its axis. -/
theorem mem_blk0_7 (t : Fin cfg0.N) (i : S4x1024x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v4).slice (win0_7.rect t)).set ↔ _
  rw [View.set_slice_whole, Rect.mem_set_unit]
  exact Iff.rfl

/-- Every index of the result array lies in the block some flushing point writes back: batch b's is point 16 b + 15. -/
theorem cover0_7 (i : S4x1024x1024.Idx) : ∃ t : Fin cfg0.N, (cfg0.win 7).flush t = true ∧ i ∈ ((cfg0.win 7).blk t).view.set := by
  have hN : cfg0.N = 64 := N_0
  have hi0 : (i 0).val < 4 := (i 0).isLt
  have hi1 : (i 1).val < 1024 := (i 1).isLt
  have hi2 : (i 2).val < 1024 := (i 2).isLt
  let t : Fin cfg0.N := ⟨16 * (i 0).val + 15, by omega⟩
  obtain ⟨-, -, -, -, -, -, -, -, -, -, -, -, -, -, -, -, -, e70, e71, e72⟩ := idx0 t
  have ht : t.val = 16 * (i 0).val + 15 := rfl
  refine ⟨t, (flush0_7 t).mpr (by omega), ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-- So call 0's result array ends at `G0`. -/
theorem final0 (c : Dev nD) : (dat0 V c).arrAt 7 cfg0.N = G0 V c :=
  (dat0 V c).arrAt_eq_of_cover 7 (G0 V c) (fun t hf => flushed0_eq V c t hf) (cover0_7)

end Cert.KernelIdeal.Hand

end
-- ==== Proof.FrameKI.Final1.lean ====
/-
  Call 1's blocks assembled into its result array.

  Call 1 walks a 4 x 4 grid (batch b, row block r). At a point it multiplies the query block, rows 1024 r to 1024 r + 1023
  of batch b, by batch b's folded-weights matrix, and writes the product back as the same rows of batch b of the result.
  Read at an entry, the product is a sum over the contracted coordinate, and the two blocks it reads are the arrays at the
  coordinates the result block's entry has: the query block sits at the result block's (batch, row block), the weights
  block at its batch. So what each point writes back is its block of one function of the two arrays,
      G1[b, s, w] = sum_a q[b, s, a] * W[b, a, w],
  and since the 16 blocks tile the [4, 4096, 1024] array (the point covering (b, s, w) is (b, s / 1024)) the array ends
  holding G1 everywhere, whatever it held when the call was entered.
-/
import proofs.«137665_j43181601194856_2_alg».proof.Proof.FrameKI.Data
import proofs.«137665_j43181601194856_2_alg».proof.Proof.AttnPay1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block offsets of a whole block are all zero. -/
theorem offsets_zero3 : (![0, 0, 0] : Fin 3 → Nat) = fun _ => 0 := funext fun a => by fin_cases a <;> rfl

/-- Row (b, s) of the query array against column w of batch b's folded weights. -/
abbrev outAt (q : S4x4096x1024.Idx → EReal) (W : S4x1024x1024.Idx → EReal) (b : Fin 4) (s : Fin 4096) (w : Fin 1024) : EReal :=
  ∑ a : Fin 1024, q (ix3 b s a) * W (ix3 b a w)

/-- The whole result array as one function of the two arrays the call reads. -/
abbrev outOf (q : S4x4096x1024.Idx → EReal) (W : S4x1024x1024.Idx → EReal) : S4x4096x1024.Idx → EReal :=
  fun i => outAt q W (i 0) (i 1) (i 2)

/-- What call 1's result array ends holding, from the contents the call is entered with. -/
def G1 (c : Dev nD) : Buf (Elt Ideal) ((c : Thread nD τ).loc main_v5) :=
  outOf (V c main_arg0) (V c main_v4)

/-- The printed index maps, decided over the 16 points: the query block and the result block sit at the same
    (batch, row block, 0); the weights block sits at (batch, 0, 0); the indices stay in range. -/
theorem idx_facts1 : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (2 : Fin 3) = 0 ∧ win1_2.index t (0 : Fin 3) ≤ 3 ∧ win1_2.index t (1 : Fin 3) ≤ 3 :=
  (by decide +kernel : ∀ t : Fin grid1.N, _)

/-- What point t writes back to the result array is block t of G1: at (0, s, w) of the block the body's product is
    sum_a q-block[0,s,a] * W-block[0,a,w]; the query block sits at the result block's (batch, row block) and the weights
    block at its batch, so entry for entry these are the arrays at the coordinates the result block's entry has. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero offsets_zero3]
  simp only [View.ld_unit_zero (S := S1x1024x1024) offsets_zero3]
  obtain ⟨e00, e01, e02, e10, e11, e12, e22, r0, r1⟩ := idx_facts1 t
  funext j
  obtain ⟨u, s, w, rfl⟩ : ∃ (u : Fin 1) (s w : Fin 1024), (j : S1x1024x1024.Idx) = ix3 u s w := ⟨j 0, j 1, j 2, eq_ix3 j⟩
  obtain rfl : u = 0 := Subsingleton.elim u 0
  refine (Cert.AttnPay1.k1_pay1_at (iblk1 V c 0 t) (iblk1 V c 1 t) s w).trans ?_
  show _ = outOf (V c main_arg0) (V c main_v4) (((cfg1.win 2).blk t).view.emb (ix3 (0 : Fin 1) s w))
  unfold outOf outAt
  refine Finset.sum_congr rfl fun a _ => ?_
  refine congrArg₂ (· * ·) ?_ ?_
  · show V c main_arg0 (((cfg1.win 0).blk t).view.emb (ix3 (0 : Fin 1) s a)) = V c main_arg0 _
    refine congrArg (V c main_arg0) (funext fun d => Fin.ext ?_)
    match d with
    | ⟨0, _⟩ => show win1_0.index t (0 : Fin 3) * 1 + 1 * 0 = win1_2.index t (0 : Fin 3) * 1 + 1 * 0; omega
    | ⟨1, _⟩ => show win1_0.index t (1 : Fin 3) * 1024 + 1 * s.val = win1_2.index t (1 : Fin 3) * 1024 + 1 * s.val; omega
    | ⟨2, _⟩ => show win1_0.index t (2 : Fin 3) * 1024 + 1 * a.val = a.val; omega
  · show V c main_v4 (((cfg1.win 1).blk t).view.emb (ix3 (0 : Fin 1) a w)) = V c main_v4 _
    refine congrArg (V c main_v4) (funext fun d => Fin.ext ?_)
    match d with
    | ⟨0, _⟩ => show win1_1.index t (0 : Fin 3) * 1 + 1 * 0 = win1_2.index t (0 : Fin 3) * 1 + 1 * 0; omega
    | ⟨1, _⟩ => show win1_1.index t (1 : Fin 3) * 1024 + 1 * a.val = a.val; omega
    | ⟨2, _⟩ => show win1_1.index t (2 : Fin 3) * 1024 + 1 * w.val = win1_2.index t (2 : Fin 3) * 1024 + 1 * w.val; omega

/-- An index of the result array is in point t's block iff each coordinate is in the block's range on its axis. -/
theorem mem_blk1 (t : Fin cfg1.N) (i : S4x4096x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v5).slice (win1_2.rect t)).set ↔ _
  rw [View.set_slice_whole, Rect.mem_set_unit]
  exact Iff.rfl

/-- Every (batch, row block) is some point's block index. -/
theorem idx_onto1 : ∀ (q0 q1 : Fin 4), ∃ t : Fin cfg1.N, win1_2.index t = ![q0.val, q1.val, 0] :=
  (by decide +kernel : ∀ (q0 q1 : Fin 4), ∃ t : Fin grid1.N, win1_2.index t = ![q0.val, q1.val, 0])

/-- The blocks tile the array: (b, s, w) is in the block of the point at (b, s / 1024). -/
theorem cover1 (i : S4x4096x1024.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 1024 := (i 2).isLt
  obtain ⟨t, ht⟩ := idx_onto1 ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- The result array after call 1: G1 of the contents the call is entered with. -/
theorem final1 (c : Dev nD) : (dat1 V c).arrAt 2 cfg1.N = G1 V c :=
  (dat1 V c).arrAt_eq_of_cover 2 (G1 V c) (fun t _ => flushed1_eq V c t) cover1

end Cert.KernelIdeal.Hand

end
-- ==== Proof.AttnHost.lean ====
/-
  The four host operations that run before the first call, on exact numbers.

  Each converts one [1024, 1024] weight matrix to the narrower float type and writes the result to a buffer of its own:
  main_v0 from main_arg4, main_v1 from main_arg5, main_v2 from main_arg6, main_v3 from main_arg7. On exact numbers a
  conversion changes nothing, so afterwards each of the four result buffers holds its argument's contents, entry for
  entry, and every buffer that is not one of the four results holds what it held before, the arguments among them.
-/
import proofs.«137665_j43181601194856_2_alg».proof.Proof.Gen.KernelIdeal.Launch
import Idealize.ShloMosaic.Lib.StableHlo.Run
import Idealize.ShloMosaic.PureOps.Ideal.Laws

noncomputable section

namespace Cert.AttnHost

open Cert.KernelIdeal Cert.KernelIdeal.Gen Idealize.ShloMosaic Idealize.ShloMosaic.StableHlo

/-! ## The four results -/

/-- main_v0 after the four operations is main_arg4's contents: the conversion to the narrower float type is the
    identity on exact numbers, and no later operation writes main_v0 or main_arg4. -/
theorem v0_after (V₀ : Valuation τ sig (Elt Ideal)) :
    (after (hostOps0 (F := Ideal)) V₀ (Proc.devRef .tc main_v0) : S1024x1024.Idx → EReal) = V₀ (Proc.devRef .tc main_arg4) := by
  dsimp only [hostOps0]
  after_results
  rfl

/-- main_v1 after the four operations is main_arg5's contents: the conversion to the narrower float type is the
    identity on exact numbers, and no later operation writes main_v1 or main_arg5. -/
theorem v1_after (V₀ : Valuation τ sig (Elt Ideal)) :
    (after (hostOps0 (F := Ideal)) V₀ (Proc.devRef .tc main_v1) : S1024x1024.Idx → EReal) = V₀ (Proc.devRef .tc main_arg5) := by
  dsimp only [hostOps0]
  after_results
  rfl

/-- main_v2 after the four operations is main_arg6's contents: the conversion to the narrower float type is the
    identity on exact numbers, and no later operation writes main_v2 or main_arg6. -/
theorem v2_after (V₀ : Valuation τ sig (Elt Ideal)) :
    (after (hostOps0 (F := Ideal)) V₀ (Proc.devRef .tc main_v2) : S1024x1024.Idx → EReal) = V₀ (Proc.devRef .tc main_arg6) := by
  dsimp only [hostOps0]
  after_results
  rfl

/-- main_v3 after the four operations is main_arg7's contents: the conversion to the narrower float type is the
    identity on exact numbers, and no later operation writes main_v3 or main_arg7. -/
theorem v3_after (V₀ : Valuation τ sig (Elt Ideal)) :
    (after (hostOps0 (F := Ideal)) V₀ (Proc.devRef .tc main_v3) : S1024x1024.Idx → EReal) = V₀ (Proc.devRef .tc main_arg7) := by
  dsimp only [hostOps0]
  after_results
  rfl

/-! ## Everything else -/

/-- A buffer that is none of the four results keeps its contents. -/
theorem other_after (V₀ : Valuation τ sig (Elt Ideal)) (r : Ref sig .tc)
    (h0 : r ≠ main_v0) (h1 : r ≠ main_v1) (h2 : r ≠ main_v2) (h3 : r ≠ main_v3) :
    after (hostOps0 (F := Ideal)) V₀ (Proc.devRef .tc r) = V₀ (Proc.devRef .tc r) := by
  dsimp only [hostOps0]
  simp only [after_cons, after_nil]
  rw [unary_result_ne _ _ _ _ _ _ h3, unary_result_ne _ _ _ _ _ _ h2, unary_result_ne _ _ _ _ _ _ h1,
    unary_result_ne _ _ _ _ _ _ h0]

/-- In particular each of the eight arguments. -/
theorem arg0_after (V₀ : Valuation τ sig (Elt Ideal)) :
    after (hostOps0 (F := Ideal)) V₀ (Proc.devRef .tc main_arg0) = V₀ (Proc.devRef .tc main_arg0) :=
  other_after V₀ main_arg0 (by decide) (by decide) (by decide) (by decide)
theorem arg1_after (V₀ : Valuation τ sig (Elt Ideal)) :
    after (hostOps0 (F := Ideal)) V₀ (Proc.devRef .tc main_arg1) = V₀ (Proc.devRef .tc main_arg1) :=
  other_after V₀ main_arg1 (by decide) (by decide) (by decide) (by decide)
theorem arg2_after (V₀ : Valuation τ sig (Elt Ideal)) :
    after (hostOps0 (F := Ideal)) V₀ (Proc.devRef .tc main_arg2) = V₀ (Proc.devRef .tc main_arg2) :=
  other_after V₀ main_arg2 (by decide) (by decide) (by decide) (by decide)
theorem arg3_after (V₀ : Valuation τ sig (Elt Ideal)) :
    after (hostOps0 (F := Ideal)) V₀ (Proc.devRef .tc main_arg3) = V₀ (Proc.devRef .tc main_arg3) :=
  other_after V₀ main_arg3 (by decide) (by decide) (by decide) (by decide)
theorem arg4_after (V₀ : Valuation τ sig (Elt Ideal)) :
    after (hostOps0 (F := Ideal)) V₀ (Proc.devRef .tc main_arg4) = V₀ (Proc.devRef .tc main_arg4) :=
  other_after V₀ main_arg4 (by decide) (by decide) (by decide) (by decide)
theorem arg5_after (V₀ : Valuation τ sig (Elt Ideal)) :
    after (hostOps0 (F := Ideal)) V₀ (Proc.devRef .tc main_arg5) = V₀ (Proc.devRef .tc main_arg5) :=
  other_after V₀ main_arg5 (by decide) (by decide) (by decide) (by decide)
theorem arg6_after (V₀ : Valuation τ sig (Elt Ideal)) :
    after (hostOps0 (F := Ideal)) V₀ (Proc.devRef .tc main_arg6) = V₀ (Proc.devRef .tc main_arg6) :=
  other_after V₀ main_arg6 (by decide) (by decide) (by decide) (by decide)
theorem arg7_after (V₀ : Valuation τ sig (Elt Ideal)) :
    after (hostOps0 (F := Ideal)) V₀ (Proc.devRef .tc main_arg7) = V₀ (Proc.devRef .tc main_arg7) :=
  other_after V₀ main_arg7 (by decide) (by decide) (by decide) (by decide)

end Cert.AttnHost

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.LibSumBlocks.lean ====
/-
  A sum over an index range of length A * B, regrouped into A consecutive blocks of length B.
  Only commutativity and associativity of addition are used, so the law holds in any additive
  commutative monoid, the extended reals included: no finiteness is needed.
-/
import Mathlib.Algebra.BigOperators.Fin
import Mathlib.Algebra.BigOperators.Group.Finset.Basic

namespace BlockSum

open Finset

/-- The sum over `Fin (A * B)` is the sum over the `A` blocks of the sums inside each block:
    the entry `(a, b)` of the block decomposition is the index `a * B + b`. -/
theorem sum_blocks {M : Type*} [AddCommMonoid M] (A B : Nat) (f : Nat → M) :
    (∑ i : Fin (A * B), f i.val) = ∑ a : Fin A, ∑ b : Fin B, f (a.val * B + b.val) := by
  rw [← Finset.sum_product', ← finProdFinEquiv.sum_comp]
  refine Finset.sum_congr rfl fun p _ => ?_
  simp [finProdFinEquiv, Nat.add_comm, Nat.mul_comm]

end BlockSum
-- ==== Proof.AttnLaw.lean ====
/-
  The algebra joining the two formulas of Proof/AttnSpec.lean when every entry of the eight argument
  arrays is a real number.

    * The float words of 0.0 and 1.0 denote 0 and 1.
    * On a real x the overflow-free spelling of x * sigmoid x agrees with the plain one: where 0 <= x both
      are x / (1 + exp (-x)); where x < 0 the first is x * exp x / (1 + exp x), and
      exp x / (1 + exp x) = 1 / (1 + exp (-x)) for real x.
    * A left-nested running sum over 16 tiles of 256 rows, started at 0, is the sum over all 4096 rows
      (associativity and commutativity of addition only).
    * The two bracketings of the triple matrix product agree for real entries: both are the triple sum
      of  q a * Wq a u * kv u c * Wo c.  The coercion of the reals is pushed outward first, since a factor
      distributes over a sum in the extended reals only away from the infinities.
-/
import proofs.«137665_j43181601194856_2_alg».proof.Proof.AttnSpec
import proofs.«137665_j43181601194856_2_alg».proof.Proof.LibRealValued
import proofs.«137665_j43181601194856_2_alg».proof.Proof.LibSumBlocks
import Idealize.ShloMosaic.PureOps.Ideal.Laws

noncomputable section

namespace Cert.AttnLaw

open Idealize.ShloMosaic Idealize.ShloMosaic.ValueIdx Cert.AttnSpec Cert.RealValued

/-! ### The two float words -/

/-- The word of 0.0 denotes 0. -/
theorem zero_eq : AttnSpec.zero = 0 := by
  unfold AttnSpec.zero
  exact Ideal.ofBits_zero_f32

/-- The word of 1.0 denotes 1: sign 0, exponent 127, significand 0, so 2^23 * 2^(127 - 127 - 23) = 1. -/
theorem one_eq : AttnSpec.one = 1 := by
  unfold AttnSpec.one
  simp [Ideal.ofBits, Ideal.ieee, -EReal.coe_mul]; norm_num

/-! ### The two spellings of x * sigmoid x on a real -/

/-- For real r,  exp r / (1 + exp r) = 1 / (1 + exp (-r)). -/
theorem sigmoid_two_ways (r : ℝ) : Real.exp r * (1 / (1 + Real.exp r)) = 1 / (1 + Real.exp (-r)) := by
  rw [Real.exp_neg]
  have h := Real.exp_pos r
  field_simp
  ring

/-- The plain spelling at a real r is the real r * (1 / (1 + exp (-r))). -/
theorem silu_coe (r : ℝ) : silu (r : EReal) = ((r * (1 / (1 + Real.exp (-r))) : ℝ) : EReal) := by
  have hne : (1 + Real.exp (-r)) ≠ 0 := ne_of_gt (by have := Real.exp_pos (-r); linarith)
  unfold silu
  rw [one_eq, ← EReal.coe_neg, Ideal.exp_coe, ← EReal.coe_one, ← EReal.coe_add, Ideal.div_coe hne,
    ← EReal.coe_mul, ← EReal.coe_mul, one_mul]

/-- The overflow-free spelling at a real r is the same real. -/
theorem swish_coe (r : ℝ) : swish (r : EReal) = ((r * (1 / (1 + Real.exp (-r))) : ℝ) : EReal) := by
  have hne : (1 + Real.exp (-r)) ≠ 0 := ne_of_gt (by have := Real.exp_pos (-r); linarith)
  have hne' : (1 + Real.exp r) ≠ 0 := ne_of_gt (by have := Real.exp_pos r; linarith)
  have hb : ¬ ((0 : BitVec 1) = 1) := by decide
  unfold swish safeArg Scalar.select Ideal.cmp
  rw [zero_eq, one_eq]
  by_cases h : (0 : ℝ) ≤ r
  · -- 0 <= r: the argument is 0 - r = -r and the branch is 1 / (1 + exp (-r))
    have h' : (0 : EReal) ≤ (r : EReal) := by exact_mod_cast h
    simp only [h', decide_true, BitVec.ofBool_true, if_true]
    rw [zero_sub, ← EReal.coe_neg, Ideal.exp_coe, ← EReal.coe_one, ← EReal.coe_add, Ideal.div_coe hne,
      ← EReal.coe_mul, ← EReal.coe_mul, one_mul]
  · -- r < 0: the argument is r and the branch is exp r / (1 + exp r) = 1 / (1 + exp (-r))
    have h' : ¬ (0 : EReal) ≤ (r : EReal) := by exact_mod_cast h
    simp only [h', decide_false, BitVec.ofBool_false, if_neg hb]
    rw [Ideal.exp_coe, ← EReal.coe_one, ← EReal.coe_add, Ideal.div_coe hne', ← EReal.coe_mul, ← EReal.coe_mul,
      sigmoid_two_ways]

/-- On a real the two spellings agree. -/
theorem swish_eq_silu {x : EReal} (hx : IsReal x) : swish x = silu x := by
  obtain ⟨r, rfl⟩ := hx
  rw [swish_coe, silu_coe]

/-- x * sigmoid x of a real is a real. -/
theorem silu_isReal {x : EReal} (hx : IsReal x) : IsReal (silu x) := by
  obtain ⟨r, rfl⟩ := hx
  exact ⟨_, silu_coe r⟩

/-! ### The running sum over the tiles is the sum over the rows -/

/-- A sum over the 4096 rows, regrouped into 16 tiles of 256 rows. -/
theorem sum_rows (g : Fin 4096 → EReal) :
    ∑ s : Fin 4096, g s = ∑ t : Fin 16, ∑ r : Fin 256, g (rowOf t r) := by
  have hb := BlockSum.sum_blocks (M := EReal) 16 256 (fun i => if h : i < 4096 then g ⟨i, h⟩ else 0)
  calc ∑ s : Fin 4096, g s
      = ∑ i : Fin (16 * 256), (fun i : Nat => if h : i < 4096 then g ⟨i, h⟩ else 0) i.val :=
        Finset.sum_congr rfl fun i _ => by
          have hi : i.val < 4096 := i.isLt
          simp only [dif_pos hi]
    _ = ∑ t : Fin 16, ∑ r : Fin 256,
          (fun i : Nat => if h : i < 4096 then g ⟨i, h⟩ else 0) (t.val * 256 + r.val) := hb
    _ = ∑ t : Fin 16, ∑ r : Fin 256, g (rowOf t r) :=
        Finset.sum_congr rfl fun t _ => Finset.sum_congr rfl fun r _ => by
          have hi : t.val * 256 + r.val < 4096 := by have := t.isLt; have := r.isLt; omega
          simp only [dif_pos hi]
          rfl

section
variable (q k v : T3) (mk : M3) (Wk Wv Wq Wo : W2)

/-- The accumulator after tile n is its starting value plus the sum of what tiles 0, …, n add:
    a left-nested sum re-associated. -/
theorem accKV_eq_sum (b : Fin 4) : ∀ (n : ℕ) (h : n < 16) (u c : Fin 1024),
    accKV k v mk Wk Wv b n h u c
      = AttnSpec.zero + ∑ t : Fin (n + 1), tileKV k v mk Wk Wv b ⟨t.val, by have := t.isLt; omega⟩ u c
  | 0, h, u, c => by
      show AttnSpec.zero + tileKV k v mk Wk Wv b ⟨0, h⟩ u c = _
      rw [Fin.sum_univ_one]
      rfl
  | n + 1, h, u, c => by
      show accKV k v mk Wk Wv b n (Nat.lt_of_succ_lt h) u c + tileKV k v mk Wk Wv b ⟨n + 1, h⟩ u c = _
      rw [accKV_eq_sum b n (Nat.lt_of_succ_lt h) u c, add_assoc]
      exact congrArg (AttnSpec.zero + ·) (Fin.sum_univ_castSucc (fun t : Fin (n + 1 + 1) =>
        tileKV k v mk Wk Wv b ⟨t.val, by have := t.isLt; omega⟩ u c)).symm

/-- After the last tile the accumulator is the sum over all 4096 rows. -/
theorem accKV_last (b : Fin 4) (u c : Fin 1024) :
    accKV k v mk Wk Wv b 15 (by decide) u c
      = ∑ s : Fin 4096, swish (proj k Wk mk b s u) * proj v Wv mk b s c := by
  rw [accKV_eq_sum, zero_eq, zero_add,
    sum_rows (fun s => swish (proj k Wk mk b s u) * proj v Wv mk b s c)]
  rfl

/-! ### Every quantity on the way is a real -/

/-- A masked projection of real arrays is real. -/
theorem proj_isReal (x : T3) (W : W2) (hx : ∀ i, IsReal (x i)) (hW : ∀ i, IsReal (W i))
    (hmk : ∀ i, IsReal (mk i)) (b : Fin 4) (s : Fin 4096) (u : Fin 1024) : IsReal (proj x W mk b s u) :=
  IsReal.mul (isReal_sum _ _ fun _ _ => (hx _).mul (hW _)) (hmk _)

/-- For real arrays the kernel's accumulator after the last tile is the reference's key-value matrix. -/
theorem accKV_eq_kvRef (hk : ∀ i, IsReal (k i)) (hmk : ∀ i, IsReal (mk i)) (hWk : ∀ i, IsReal (Wk i))
    (b : Fin 4) (u c : Fin 1024) :
    accKV k v mk Wk Wv b 15 (by decide) u c = kvRef k v mk Wk Wv b u c := by
  rw [accKV_last]
  unfold kvRef
  exact Finset.sum_congr rfl fun s _ => by rw [swish_eq_silu (proj_isReal mk k Wk hk hWk hmk b s u)]

/-- For real arrays the key-value matrix is real. -/
theorem kvRef_isReal (hk : ∀ i, IsReal (k i)) (hv : ∀ i, IsReal (v i)) (hmk : ∀ i, IsReal (mk i))
    (hWk : ∀ i, IsReal (Wk i)) (hWv : ∀ i, IsReal (Wv i)) (b : Fin 4) (u c : Fin 1024) :
    IsReal (kvRef k v mk Wk Wv b u c) :=
  isReal_sum _ _ fun s _ =>
    (silu_isReal (proj_isReal mk k Wk hk hWk hmk b s u)).mul (proj_isReal mk v Wv hv hWv hmk b s c)

end

/-! ### The two bracketings of the triple product -/

/-- Over the reals both bracketings are the triple sum of  q a * Wq a u * kv u c * Wo c. -/
theorem rebracket_real {A U C : Type} [Fintype A] [Fintype U] [Fintype C]
    (q : A → ℝ) (Wq : A → U → ℝ) (kv : U → C → ℝ) (Wo : C → ℝ) :
    ∑ a, q a * (∑ u, Wq a u * (∑ c, kv u c * Wo c))
      = ∑ c, (∑ u, (∑ a, q a * Wq a u) * kv u c) * Wo c := by
  simp only [Finset.mul_sum, Finset.sum_mul]
  calc ∑ a, ∑ u, ∑ c, q a * (Wq a u * (kv u c * Wo c))
      = ∑ a, ∑ c, ∑ u, q a * (Wq a u * (kv u c * Wo c)) := Finset.sum_congr rfl fun a _ => Finset.sum_comm
    _ = ∑ c, ∑ a, ∑ u, q a * (Wq a u * (kv u c * Wo c)) := Finset.sum_comm
    _ = ∑ c, ∑ u, ∑ a, q a * (Wq a u * (kv u c * Wo c)) := Finset.sum_congr rfl fun c _ => Finset.sum_comm
    _ = ∑ c, ∑ u, ∑ a, q a * Wq a u * kv u c * Wo c :=
        Finset.sum_congr rfl fun c _ => Finset.sum_congr rfl fun u _ => Finset.sum_congr rfl fun a _ => by ring

/-- The same over the extended reals when every entry is real: the inclusion of the reals is pushed
    outward through the products and the finite sums, and the identity is the one over the reals. -/
theorem rebracket {A U C : Type} [Fintype A] [Fintype U] [Fintype C]
    (q : A → EReal) (Wq : A → U → EReal) (kv : U → C → EReal) (Wo : C → EReal)
    (hq : ∀ a, IsReal (q a)) (hWq : ∀ a u, IsReal (Wq a u)) (hkv : ∀ u c, IsReal (kv u c))
    (hWo : ∀ c, IsReal (Wo c)) :
    ∑ a, q a * (∑ u, Wq a u * (∑ c, kv u c * Wo c))
      = ∑ c, (∑ u, (∑ a, q a * Wq a u) * kv u c) * Wo c := by
  choose q' hq' using hq
  choose Wq' hWq' using hWq
  choose kv' hkv' using hkv
  choose Wo' hWo' using hWo
  simp only [hq', hWq', hkv', hWo', ← EReal.coe_mul, ← coe_sum]
  exact congrArg _ (rebracket_real q' Wq' kv' Wo')

/-! ### The two formulas agree -/

/-- For real argument arrays the kernel's output element is the reference's. -/
theorem kerOut_eq_refOut (q k v : T3) (mk : M3) (Wk Wv Wq Wo : W2)
    (hq : ∀ i, IsReal (q i)) (hk : ∀ i, IsReal (k i)) (hv : ∀ i, IsReal (v i)) (hmk : ∀ i, IsReal (mk i))
    (hWk : ∀ i, IsReal (Wk i)) (hWv : ∀ i, IsReal (Wv i)) (hWq : ∀ i, IsReal (Wq i)) (hWo : ∀ i, IsReal (Wo i))
    (b : Fin 4) (s : Fin 4096) (w : Fin 1024) :
    kerOut q k v mk Wk Wv Wq Wo b s w = refOut q k v mk Wk Wv Wq Wo b s w := by
  unfold kerOut refOut
  simp only [accKV_eq_kvRef k v mk Wk Wv hk hmk hWk]
  exact rebracket (fun a => q (ix3 b s a)) (fun a u => Wq (ix2 a u)) (fun u c => kvRef k v mk Wk Wv b u c)
    (fun c => Wo (ix2 c w)) (fun _ => hq _) (fun _ _ => hWq _)
    (fun u c => kvRef_isReal k v mk Wk Wv hk hv hmk hWk hWv b u c) (fun _ => hWo _)

end Cert.AttnLaw

end
-- ==== Proof.AttnFinite.lean ====
/-
  Finiteness out of the precondition.

  The precondition is the conjunction, over the eight argument arrays, of "every entry x has |x| < +infinity":
  each array is compared entry by entry, |x| = max x (-x) against the float word 0x7F800000, the comparisons of one
  array are reduced by "and" over all its axes from the constant 1, and the eight results are joined by "and".
  Read on the extended reals the word 0x7F800000 is the top element, so an entry passes exactly when neither it nor
  its negative is the top element: it is the image of a real number. So where the precondition is 1, every entry of
  every argument is a real number.
-/
import proofs.«137665_j43181601194856_2_alg».proof.Pre_finite_inputs
import proofs.«137665_j43181601194856_2_alg».proof.Proof.Gen.Pre_finite_inputs
import proofs.«137665_j43181601194856_2_alg».proof.Proof.LibRealValued
import Idealize.ShloMosaic.Lib.ReduceAll
import Idealize.ShloMosaic.Lib.Pipeline.Value
import Idealize.ShloMosaic.Lib.ValueIdx

noncomputable section

namespace Cert.AttnFinite

open Cert.Pre_finite_inputs Cert.RealValued Idealize.ShloMosaic

/-- The scalar shape has one index. -/
instance : Subsingleton S_.Idx := ⟨fun a b => funext fun d => d.elim0⟩

/-- The float word with all exponent bits set and no fraction bit is the top element. -/
theorem inf_word : Ideal.ofBits .f32 0x7F800000#32 = (⊤ : EReal) := by
  simp [Ideal.ofBits, Ideal.ieee]

/-- An extended real whose absolute value max x (-x) is below the top element is a real number:
    at the bottom element the negative is the top, at the top element x itself is. -/
theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- One array's comparison at an entry: if |a i| compared below the broadcast word gives 1, a i is a real number. -/
theorem isReal_of_entry {s : Shape} (bc : S_.BroadcastsInDim s (![] : Fin 0 → Fin s.rank)) (a : FVec Ideal s .f32) (i : s.Idx)
    (h : cmpf .olt (Host.absf a) (broadcastInDim s ![] bc (constant (F := Ideal) S_ .f32 0x7F800000#32)) i = 1#1) :
    IsReal (a i) := by
  have eb : broadcastInDim s ![] bc (constant (F := Ideal) S_ .f32 0x7F800000#32) i = Ideal.ofBits .f32 0x7F800000#32 :=
    broadcastInDim_apply _ bc _ i (fun d => d.elim0) (fun d => d.elim0)
  have h' : Ideal.cmp .olt (max (a i) (-(a i))) (broadcastInDim s ![] bc (constant (F := Ideal) S_ .f32 0x7F800000#32) i) = 1#1 := h
  rw [eb] at h'
  exact isReal_of_abs_lt _ h'

/-- Where the precondition is 1, every entry of every argument is a real number. -/
theorem real_of_pre [hPre_finite_inputs : Cert.Pre_finite_inputs.Facts]
    (a0 a1 a2 : FVec Ideal S4x4096x1024 .f32) (a3 : FVec Ideal S4x4096x1 .f32) (a4 a5 a6 a7 : FVec Ideal S1024x1024 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i)) := by
  have e := congrFun h ValueIdx.ix0
  dsimp only [fn, fn_part1, fn_part2] at e
  simp only [andi, IntOp.andi_eq_one] at e
  obtain ⟨⟨⟨⟨⟨⟨⟨h0, h1⟩, h2⟩, h3⟩, h4⟩, h5⟩, h6⟩, h7⟩ := e
  exact ⟨fun i => isReal_of_entry _ a0 i (Host.reduce_andi_all _ _ _ _ _ h0 i),
    fun i => isReal_of_entry _ a1 i (Host.reduce_andi_all _ _ _ _ _ h1 i),
    fun i => isReal_of_entry _ a2 i (Host.reduce_andi_all _ _ _ _ _ h2 i),
    fun i => isReal_of_entry _ a3 i (Host.reduce_andi_all _ _ _ _ _ h3 i),
    fun i => isReal_of_entry _ a4 i (Host.reduce_andi_all _ _ _ _ _ h4 i),
    fun i => isReal_of_entry _ a5 i (Host.reduce_andi_all _ _ _ _ _ h5 i),
    fun i => isReal_of_entry _ a6 i (Host.reduce_andi_all _ _ _ _ _ h6 i),
    fun i => isReal_of_entry _ a7 i (Host.reduce_andi_all _ _ _ _ _ h7 i)⟩

end Cert.AttnFinite

end
-- ==== Proof.FrameKI.Result.lean ====
/-
  The idealized kernel's result array, as a function of the launch memory. Call 1 multiplies the query by call 0's
  result; call 0's result is Wq · (acc · Wo) per batch over the converted weights, and a conversion to a narrower
  float format is the identity on extended reals, so every array either call reads is an argument array as launched.
  Altogether the result array holds the kernel-side formula of the specification at every index; with every argument
  entry finite that formula equals the reference-side one.
-/
import proofs.«137665_j43181601194856_2_alg».proof.Proof.FrameKI.Main
import proofs.«137665_j43181601194856_2_alg».proof.Proof.FrameKI.Final0
import proofs.«137665_j43181601194856_2_alg».proof.Proof.FrameKI.Final1
import proofs.«137665_j43181601194856_2_alg».proof.Proof.AttnHost
import proofs.«137665_j43181601194856_2_alg».proof.Proof.AttnLaw
import proofs.«137665_j43181601194856_2_alg».proof.Proof.AttnFinite
import proofs.«137665_j43181601194856_2_alg».proof.Defs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## What the calls find, in terms of the launch memory -/

theorem V1_k (c : Dev nD) : aK (V1 m) c = ((m ((c : Thread nD τ).loc main_arg1)) : Cert.AttnSpec.T3) := Cert.AttnHost.arg1_after (W0 m c)
theorem V1_v (c : Dev nD) : aV (V1 m) c = ((m ((c : Thread nD τ).loc main_arg2)) : Cert.AttnSpec.T3) := Cert.AttnHost.arg2_after (W0 m c)
theorem V1_mk (c : Dev nD) : aM (V1 m) c = ((m ((c : Thread nD τ).loc main_arg3)) : Cert.AttnSpec.M3) := Cert.AttnHost.arg3_after (W0 m c)
theorem V1_Wk (c : Dev nD) : aWk (V1 m) c = ((m ((c : Thread nD τ).loc main_arg4)) : Cert.AttnSpec.W2) := Cert.AttnHost.v0_after (W0 m c)
theorem V1_Wv (c : Dev nD) : aWv (V1 m) c = ((m ((c : Thread nD τ).loc main_arg5)) : Cert.AttnSpec.W2) := Cert.AttnHost.v1_after (W0 m c)
theorem V1_Wq (c : Dev nD) : aWq (V1 m) c = ((m ((c : Thread nD τ).loc main_arg6)) : Cert.AttnSpec.W2) := Cert.AttnHost.v2_after (W0 m c)
theorem V1_Wo (c : Dev nD) : aWo (V1 m) c = ((m ((c : Thread nD τ).loc main_arg7)) : Cert.AttnSpec.W2) := Cert.AttnHost.v3_after (W0 m c)
theorem V2_q (c : Dev nD) : (V2 m c main_arg0 : Cert.AttnSpec.T3) = (m ((c : Thread nD τ).loc main_arg0)) :=
  (W2_of_ne m c main_arg0 (by decide)).trans (Cert.AttnHost.arg0_after (W0 m c))
theorem V2_weff (c : Dev nD) : (V2 m c main_v4 : S4x1024x1024.Idx → EReal) = G0 (V1 m) c :=
  (W2_arr m c 7).trans (final0 (V1 m) c)

/-- The result array holds the kernel-side formula. -/
theorem result_kerOut (c : Dev nD) :
    ((dat1 (V2 m) c).arrAt 2 cfg1.N : S4x4096x1024.Idx → EReal)
      = fun i => Cert.AttnSpec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) := by
  rw [final1 (V2 m) c]
  funext i
  unfold G1 outOf outAt
  rw [V2_q, V2_weff]
  unfold G0 Cert.AttnSpec.kerOut
  rw [V1_k, V1_v, V1_mk, V1_Wk, V1_Wv, V1_Wq, V1_Wo]

/-- Under the precondition it holds the reference-side formula. -/
theorem result_refOut (hpre : Cert.Pre_KernelIdeal m) (c : Dev nD) :
    ((dat1 (V2 m) c).arrAt 2 cfg1.N : S4x4096x1024.Idx → EReal)
      = fun i => Cert.AttnSpec.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) := by
  rw [result_kerOut m c]
  funext i
  obtain ⟨h0, h1, h2, h3, h4, h5, h6, h7⟩ := Cert.AttnFinite.real_of_pre _ _ _ _ _ _ _ _ (hpre c)
  exact Cert.AttnLaw.kerOut_eq_refOut _ _ _ _ _ _ _ _ h0 h1 h2 h3 h4 h5 h6 h7 (i 0) (i 1) (i 2)

end Cert.KernelIdeal.Hand

end
-- ==== Proof.AttnRef.lean ====
/-
  The reference program read at one output element.

  The generated reader gives each of the reference's operations at an index: a matrix product is the sum over the
  contracted coordinate of the left operand at one index times the right at another, a broadcast reads its operand
  at an index with the broadcast coordinate set to 0, and an elementwise operation acts on the operands at the same index.
  At an index written by its coordinates (b, s, w) each of those index functions is again an index written by its
  coordinates; with that the operations compose, outermost first, into the formula AttnSpec.refOut:
    the masked projections  P k Wk, P v Wv  (a product with a weight matrix, then the row's mask),
    silu of the first,  x * (1 / (1 + exp (-x))),
    kv[b,u,c] = sum over the 4096 rows s of  silu (P k Wk (b,s,u)) * P v Wv (b,s,c),
    the query projection  sum_a q[b,s,a] * Wq[a,u],  its product with kv, and the product with Wo.
-/
import proofs.«137665_j43181601194856_2_alg».proof.Proof.Gen.ReferenceIdeal.Read
import proofs.«137665_j43181601194856_2_alg».proof.Proof.AttnSpec

noncomputable section

namespace Cert.AttnRef

open Cert.ReferenceIdeal Cert.ReferenceIdeal.Read Idealize.ShloMosaic Idealize.ShloMosaic.ValueIdx

/-! ## The index functions at coordinates -/

/-- Left index of a product contracting the last axis against a matrix: (b, s, _) and k give (b, s, k). -/
theorem lidx0 (b : Fin 4) (s : Fin 4096) (w k : Fin 1024) : lidx_main_v0 (ix3 b s w) k = ix3 b s k :=
  funext fun a => Fin.ext (by match a with | ⟨0, _⟩ => rfl | ⟨1, _⟩ => rfl | ⟨2, _⟩ => rfl)
/-- Right index of the same product: (_, _, w) and k give (k, w). -/
theorem ridx0 (b : Fin 4) (s : Fin 4096) (w k : Fin 1024) : ridx_main_v0 (ix3 b s w) k = ix2 k w :=
  funext fun a => Fin.ext (by match a with | ⟨0, _⟩ => rfl | ⟨1, _⟩ => rfl)
theorem lidx1 (b : Fin 4) (s : Fin 4096) (w k : Fin 1024) : lidx_main_v1 (ix3 b s w) k = ix3 b s k :=
  funext fun a => Fin.ext (by match a with | ⟨0, _⟩ => rfl | ⟨1, _⟩ => rfl | ⟨2, _⟩ => rfl)
theorem ridx1 (b : Fin 4) (s : Fin 4096) (w k : Fin 1024) : ridx_main_v1 (ix3 b s w) k = ix2 k w :=
  funext fun a => Fin.ext (by match a with | ⟨0, _⟩ => rfl | ⟨1, _⟩ => rfl)
theorem lidx2 (b : Fin 4) (s : Fin 4096) (w k : Fin 1024) : lidx_main_v2 (ix3 b s w) k = ix3 b s k :=
  funext fun a => Fin.ext (by match a with | ⟨0, _⟩ => rfl | ⟨1, _⟩ => rfl | ⟨2, _⟩ => rfl)
theorem ridx2 (b : Fin 4) (s : Fin 4096) (w k : Fin 1024) : ridx_main_v2 (ix3 b s w) k = ix2 k w :=
  funext fun a => Fin.ext (by match a with | ⟨0, _⟩ => rfl | ⟨1, _⟩ => rfl)
theorem lidx10 (b : Fin 4) (s : Fin 4096) (w k : Fin 1024) : lidx_main_v10 (ix3 b s w) k = ix3 b s k :=
  funext fun a => Fin.ext (by match a with | ⟨0, _⟩ => rfl | ⟨1, _⟩ => rfl | ⟨2, _⟩ => rfl)
theorem ridx10 (b : Fin 4) (s : Fin 4096) (w k : Fin 1024) : ridx_main_v10 (ix3 b s w) k = ix2 k w :=
  funext fun a => Fin.ext (by match a with | ⟨0, _⟩ => rfl | ⟨1, _⟩ => rfl)
/-- The mask's broadcast reads row (b, s) of the mask at its one column. -/
theorem idx3 (b : Fin 4) (s : Fin 4096) (w : Fin 1024) : idx_main_v3 (ix3 b s w) = ix3 b s (0 : Fin 1) :=
  funext fun a => Fin.ext (by match a with | ⟨0, _⟩ => rfl | ⟨1, _⟩ => rfl | ⟨2, _⟩ => rfl)
theorem idx5 (b : Fin 4) (s : Fin 4096) (w : Fin 1024) : idx_main_v5 (ix3 b s w) = ix3 b s (0 : Fin 1) :=
  funext fun a => Fin.ext (by match a with | ⟨0, _⟩ => rfl | ⟨1, _⟩ => rfl | ⟨2, _⟩ => rfl)
/-- The batched product over the rows: (b, u, c) and row s give (b, s, u) on the left and (b, s, c) on the right. -/
theorem lidx8 (b : Fin 4) (u c : Fin 1024) (s : Fin 4096) : lidx_main_v8 (ix3 b u c) s = ix3 b s u :=
  funext fun a => Fin.ext (by match a with | ⟨0, _⟩ => rfl | ⟨1, _⟩ => rfl | ⟨2, _⟩ => rfl)
theorem ridx8 (b : Fin 4) (u c : Fin 1024) (s : Fin 4096) : ridx_main_v8 (ix3 b u c) s = ix3 b s c :=
  funext fun a => Fin.ext (by match a with | ⟨0, _⟩ => rfl | ⟨1, _⟩ => rfl | ⟨2, _⟩ => rfl)
/-- The batched product with kv: (b, s, c) and u give (b, s, u) on the left and (b, u, c) on the right. -/
theorem lidx9 (b : Fin 4) (s : Fin 4096) (c u : Fin 1024) : lidx_main_v9 (ix3 b s c) u = ix3 b s u :=
  funext fun a => Fin.ext (by match a with | ⟨0, _⟩ => rfl | ⟨1, _⟩ => rfl | ⟨2, _⟩ => rfl)
theorem ridx9 (b : Fin 4) (s : Fin 4096) (c u : Fin 1024) : ridx_main_v9 (ix3 b s c) u = ix3 b u c :=
  funext fun a => Fin.ext (by match a with | ⟨0, _⟩ => rfl | ⟨1, _⟩ => rfl | ⟨2, _⟩ => rfl)

/-! ## The stages -/

section
variable (x0 x1 x2 : (⟨S4x4096x1024, .f32⟩ : BufTy).Contents (Elt Ideal)) (x3 : (⟨S4x4096x1, .f32⟩ : BufTy).Contents (Elt Ideal))
  (x4 x5 x6 x7 : (⟨S1024x1024, .f32⟩ : BufTy).Contents (Elt Ideal))

/-- The masked key projection. -/
theorem projK_at (b : Fin 4) (s : Fin 4096) (u : Fin 1024) :
    val_main_v4 (F := Ideal) x1 x3 x4 (ix3 b s u) = Cert.AttnSpec.proj x1 x4 x3 b s u := by
  rw [val_main_v4_apply, val_main_v0_apply, val_main_v3_apply]
  simp only [Ideal.mulf_def, lidx0, ridx0, idx3]
  rfl

/-- The masked value projection. -/
theorem projV_at (b : Fin 4) (s : Fin 4096) (c : Fin 1024) :
    val_main_v6 (F := Ideal) x2 x3 x5 (ix3 b s c) = Cert.AttnSpec.proj x2 x5 x3 b s c := by
  rw [val_main_v6_apply, val_main_v1_apply, val_main_v5_apply]
  simp only [Ideal.mulf_def, lidx1, ridx1, idx5]
  rfl

/-- silu of the masked key projection: x * (1 / (1 + exp (-x))), both ones the float word of 1.0. -/
theorem silu_at (b : Fin 4) (s : Fin 4096) (u : Fin 1024) :
    val_main_v7 (F := Ideal) x1 x3 x4 (ix3 b s u) = Cert.AttnSpec.silu (Cert.AttnSpec.proj x1 x4 x3 b s u) := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, projK_at]
  simp only [Ideal.mulf_def, Ideal.addf_def, Ideal.hostDivf_def, Ideal.hostUnary_exp_def, Ideal.hostNegf_def,
    Ideal.negf_def, Ideal.ofBits_def]
  rfl

/-- The key-value matrix: one sum over all 4096 rows. -/
theorem kv_at (b : Fin 4) (u c : Fin 1024) :
    val_main_v8 (F := Ideal) x1 x2 x3 x4 x5 (ix3 b u c) = Cert.AttnSpec.kvRef x1 x2 x3 x4 x5 b u c := by
  rw [val_main_v8_apply]
  unfold Cert.AttnSpec.kvRef
  refine Finset.sum_congr rfl fun s _ => ?_
  rw [lidx8, ridx8, silu_at, projV_at]

/-- The query projection (no mask). -/
theorem projQ_at (b : Fin 4) (s : Fin 4096) (u : Fin 1024) :
    val_main_v2 (F := Ideal) x0 x6 (ix3 b s u) = ∑ a : Fin 1024, x0 (ix3 b s a) * x6 (ix2 a u) := by
  rw [val_main_v2_apply]
  simp only [lidx2, ridx2]

/-- The query projection against the key-value matrix. -/
theorem mid_at (b : Fin 4) (s : Fin 4096) (c : Fin 1024) :
    val_main_v9 (F := Ideal) x0 x1 x2 x3 x4 x5 x6 (ix3 b s c)
      = ∑ u : Fin 1024, (∑ a : Fin 1024, x0 (ix3 b s a) * x6 (ix2 a u)) * Cert.AttnSpec.kvRef x1 x2 x3 x4 x5 b u c := by
  rw [val_main_v9_apply]
  refine Finset.sum_congr rfl fun u _ => ?_
  rw [lidx9, ridx9, projQ_at, kv_at]

/-- The reference's result at (b, s, w) is the specification's formula. -/
theorem ref_at (b : Fin 4) (s : Fin 4096) (w : Fin 1024) :
    val_main_v10 (F := Ideal) x0 x1 x2 x3 x4 x5 x6 x7 (ix3 b s w) = Cert.AttnSpec.refOut x0 x1 x2 x3 x4 x5 x6 x7 b s w := by
  rw [val_main_v10_apply]
  unfold Cert.AttnSpec.refOut
  refine Finset.sum_congr rfl fun c _ => ?_
  rw [lidx10, ridx10, mid_at]

end

end Cert.AttnRef

end
-- ==== Proof.AttnRefRun.lean ====
/-
  The reference program's run, with its result stated as the specification's formula.

  The generated run says: from any memory with zero counters every weakly fair execution of the reference
  terminates, its result array holding the composed term of its nineteen operations on the argument arrays and
  the argument arrays unchanged. Read at an element (b, s, w) that composed term is the reference formula
  AttnSpec.refOut of the eight argument arrays (Proof/AttnRef.lean); so the result array is, element by element,
  that formula of the arguments' launch contents. Dropping the statement about the result leaves the frame claim.
-/
import proofs.«137665_j43181601194856_2_alg».proof.Defs
import proofs.«137665_j43181601194856_2_alg».proof.Proof.Gen.ReferenceIdeal
import proofs.«137665_j43181601194856_2_alg».proof.Proof.Gen.ReferenceIdeal.Run
import proofs.«137665_j43181601194856_2_alg».proof.Proof.Gen.ReferenceIdeal.Read
import proofs.«137665_j43181601194856_2_alg».proof.Proof.Gen.Pre_finite_inputs
import proofs.«137665_j43181601194856_2_alg».proof.Proof.AttnRef
import proofs.«137665_j43181601194856_2_alg».proof.Proof.AttnSpec

noncomputable section

namespace Cert.AttnRefRun

open Idealize.ShloMosaic Idealize.ShloMosaic.TcCoe Idealize.SL.Sem

/-- The composed term of the reference's operations is, as a function of the output index, the reference formula
    at the index's three coordinates. -/
theorem val_eq_refOut (x0 x1 x2 : (⟨Cert.ReferenceIdeal.S4x4096x1024, .f32⟩ : BufTy).Contents (Elt Ideal))
    (x3 : (⟨Cert.ReferenceIdeal.S4x4096x1, .f32⟩ : BufTy).Contents (Elt Ideal))
    (x4 x5 x6 x7 : (⟨Cert.ReferenceIdeal.S1024x1024, .f32⟩ : BufTy).Contents (Elt Ideal)) :
    Cert.ReferenceIdeal.Read.val_main_v10 (F := Ideal) x0 x1 x2 x3 x4 x5 x6 x7
      = fun i : Cert.ReferenceIdeal.S4x4096x1024.Idx => Cert.AttnSpec.refOut x0 x1 x2 x3 x4 x5 x6 x7 (i 0) (i 1) (i 2) :=
  funext fun i =>
    (congrArg (Cert.ReferenceIdeal.Read.val_main_v10 (F := Ideal) x0 x1 x2 x3 x4 x5 x6 x7) (ValueIdx.eq_ix3 i)).trans
      (Cert.AttnRef.ref_at x0 x1 x2 x3 x4 x5 x6 x7 (i 0) (i 1) (i 2))

/-- The reference runs, its result array ends at the reference formula of the arguments' launch contents, element
    by element, and its argument arrays end unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v10)
          = (fun i : Cert.ReferenceIdeal.S4x4096x1024.Idx => Cert.AttnSpec.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (i 0) (i 1) (i 2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((Cert.ReferenceIdeal.Read.val_main_v10_eq _ _ _ _ _ _ _ _).trans (val_eq_refOut _ _ _ _ _ _ _ _)), (h c).2⟩)
    (Cert.ReferenceIdeal.Value.run (F := Ideal) m' g')

/-- The reference's frame claim: it runs and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.AttnRefRun

end
-- ==== Proof.lean ====
/-
  Linear attention on a TPU, with the query and output projections folded into the key-value matrix, against its
  plain jnp reference: the kernel runs (terminates, faults nowhere, leaves its arguments unchanged) at the word level
  and idealized, the reference runs, and the idealized kernel and the idealized reference end with equal results as
  extended reals whenever every argument entry is finite.

  The kernel is two pallas calls behind four host conversions of the weight matrices to bf16 (the identity on
  extended reals). Call 0 walks (batch, row tile): it accumulates  swish(mask · k Wk)ᵀ (mask · v Wv)  tile by tile in a
  buffer it keeps between points, and at a batch's last tile stores  Wq · (acc · Wo);  call 1 stores  q · (that).
  The reference computes  ((q Wq) · kv) · Wo  with kv summed over all rows at once and the sigmoid spelt
  1 / (1 + exp (-x)). The two agree because: the kernel's overflow-free sigmoid is that sigmoid on real numbers; a
  running sum is the sum; and the triple matrix product may be re-bracketed — which on the extended reals needs every
  entry finite, and is where the precondition is used.

  Frames: each call's body is run once per control case (first, middle, last tile of a batch), an invariant carries
  the accumulator from point to point, and @main is the three items (host conversions, call 0, call 1) in sequence.
  The same text proves the word-level kernel's frame and the idealized one's. The reference's frame is its run with
  the result dropped. The idealization rewrote no operation, so the preservation claim is trivial.
-/
import proofs.«137665_j43181601194856_2_alg».proof.Defs
import proofs.«137665_j43181601194856_2_alg».proof.Proof.Gen.Kernel
import proofs.«137665_j43181601194856_2_alg».proof.Proof.Gen.KernelIdeal
import proofs.«137665_j43181601194856_2_alg».proof.Proof.Gen.ReferenceIdeal
import proofs.«137665_j43181601194856_2_alg».proof.Proof.Gen.Pre_finite_inputs
import proofs.«137665_j43181601194856_2_alg».proof.Proof.Gen.ReferenceIdeal.Run
import proofs.«137665_j43181601194856_2_alg».proof.Proof.Gen.ReferenceIdeal.Read
import proofs.«137665_j43181601194856_2_alg».proof.Proof.FrameK.Main
import proofs.«137665_j43181601194856_2_alg».proof.Proof.FrameKI.Main
import proofs.«137665_j43181601194856_2_alg».proof.Proof.FrameKI.Result
import proofs.«137665_j43181601194856_2_alg».proof.Proof.AttnRefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.AttnRefRun.frame_ri

/-- The idealization rewrote no operation. -/
theorem preserves : Cert.preserves_Kernel_KernelIdeal := trivial

/-- Both idealized programs end at the reference-side formula of the kernel's launch memory: the kernel by its run
    and the law that joins the two formulas, the reference by its run over memories agreeing on the arguments. -/
theorem algebraic : Cert.algebraic_KernelIdeal_ReferenceIdeal := by
  intro m g m' g' hpre hagree
  refine ⟨fun c => (fun i => Cert.AttnSpec.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (i 0) (i 1) (i 2)), ?_, ?_⟩
  · exact (θ_run Cert.KernelIdeal.defs _ _).mono
      (fun _ h c => ⟨(h c).1.trans (Cert.KernelIdeal.Hand.result_refOut m hpre c), (h c).2⟩)
      (Cert.KernelIdeal.Hand.run_main m g)
  · refine (θ_run Cert.ReferenceIdeal.defs _ _).mono (fun _ h c => ⟨(h c).1.trans ?_, (h c).2⟩) (Cert.AttnRefRun.ref_run m' g')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
